-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S128x256 : Shape := ⟨2, ![128, 256]⟩
abbrev S128 : Shape := ⟨1, ![128]⟩
abbrev S256x128 : Shape := ⟨2, ![256, 128]⟩
abbrev S256 : Shape := ⟨1, ![256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg4 : FVec F S256x128 .f32) (main_arg5 : FVec F S256 .f32) (main_arg6 : FVec F S256x128 .f32) (main_arg7 : FVec F S256 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_v33

def fn {F : FTy → Type} [FloatOps F] (main_arg0 : FVec F S100000x256 .f32) (main_arg1 : FVec F S1600000 .f32) (main_arg2 : FVec F S128x256 .f32) (main_arg3 : FVec F S128 .f32) (main_arg4 : FVec F S256x128 .f32) (main_arg5 : FVec F S256 .f32) (main_arg6 : FVec F S256x128 .f32) (main_arg7 : FVec F S256 .f32) (main_arg8 : IVec S1600000 32) (main_arg9 : IVec S1600000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S100000x256 : Shape := ⟨2, ![100000, 256]⟩
abbrev S1600000 : Shape := ⟨1, ![1600000]⟩
abbrev S128x256 : Shape := ⟨2, ![128, 256]⟩
abbrev S128 : Shape := ⟨1, ![128]⟩
abbrev S256x128 : Shape := ⟨2, ![256, 128]⟩
abbrev S256 : Shape := ⟨1, ![256]⟩
abbrev S1x128 : Shape := ⟨2, ![1, 128]⟩
abbrev S1x256 : Shape := ⟨2, ![1, 256]⟩
abbrev S100000x128 : Shape := ⟨2, ![100000, 128]⟩
abbrev S2000x256 : Shape := ⟨2, ![2000, 256]⟩
abbrev S2000x128 : Shape := ⟨2, ![2000, 128]⟩
abbrev S1600000x1 : Shape := ⟨2, ![1600000, 1]⟩
abbrev S_ : Shape := ⟨0, ![]⟩
abbrev S1600000x128 : Shape := ⟨2, ![1600000, 128]⟩

abbrev nBuf : Space → Nat
  | .hbm => 32
  | .vmem => 18
  | .smem => 0
  | _ => 0

abbrev bufTy : (tb : Table) → Fin (tcTables nBuf tb) → BufTy
  | .hbm, ⟨0, _⟩ => ⟨S100000x256, .f32⟩
  | .hbm, ⟨1, _⟩ => ⟨S1600000, .f32⟩
  | .hbm, ⟨2, _⟩ => ⟨S128x256, .f32⟩
  | .hbm, ⟨3, _⟩ => ⟨S128, .f32⟩
  | .hbm, ⟨4, _⟩ => ⟨S256x128, .f32⟩
  | .hbm, ⟨5, _⟩ => ⟨S256, .f32⟩
  | .hbm, ⟨6, _⟩ => ⟨S256x128, .f32⟩
  | .hbm, ⟨7, _⟩ => ⟨S256, .f32⟩
  | .hbm, ⟨8, _⟩ => ⟨S1600000, .i32⟩
  | .hbm, ⟨9, _⟩ => ⟨S1600000, .i32⟩
  | .hbm, ⟨10, _⟩ => ⟨S1x128, .f32⟩
  | .hbm, ⟨11, _⟩ => ⟨S1x256, .f32⟩
  | .hbm, ⟨12, _⟩ => ⟨S1x256, .f32⟩
  | .hbm, ⟨13, _⟩ => ⟨S100000x128, .f32⟩
  | .hbm, ⟨14, _⟩ => ⟨S100000x128, .f32⟩
  | .hbm, ⟨15, _⟩ => ⟨S1600000x1, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S1600000x128, .f32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S100000x256, .f32⟩
  | .local _ .vmem, ⟨0, _⟩ => ⟨S2000x256, .f32⟩
  | .local _ .vmem, ⟨1, _⟩ => ⟨S2000x256, .f32⟩
  | .local _ .vmem, ⟨2, _⟩ => ⟨S128x256, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S256x128, .f32⟩
  | .local _ .vmem, ⟨13, _⟩ => ⟨S1x256, .f32⟩
  | .local _ .vmem, ⟨14, _⟩ => ⟨S256x128, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S128_S1x128 : S128.ShapeCasts S1x128
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S2000x128_S2000x128 : S2000x128.ShapeCasts S2000x128
  inb_S256x128_S256x128_0_0 : ∀ a, (![0, 0] : Fin 2 → Nat) a + S256x128.size a ≤ S256x128.size a
  h_S256x128 : 0 < S256x128.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  dot_S2000x256_S128x256_S2000x128_1_1_0_0_n_n_wf : DotDims.WF S2000x256 S128x256 S2000x128 [1] [1] [0] [0] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S256x128_S2000x256_1_1_0_0_n_n_wf : DotDims.WF S2000x128 S256x128 S2000x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .f32 = 32 ∨ (Rect.block (s := S100000x128) S2000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S100000x256.size a
  hwx1_6 : ∀ i : grid1.Coords, EltTy.bits .f32 = 32 ∨ (Rect.block (s := S100000x256) S2000x256.size (cc1_transform_6 i) (hinb1_6 i)).WholeWords (EltTy.packing .f32)

variable [Facts₀]

def dot_S2000x256_S128x256_S2000x128_1_1_0_0_n_n : DotDims S2000x256 S128x256 S2000x128 where
  lhsContracting := [1]
  rhsContracting := [1]
  lhsNonContracting := [0]
  rhsNonContracting := [0]
  lhsBatch := []
  rhsBatch := []
  wf := dot_S2000x256_S128x256_S2000x128_1_1_0_0_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S256x128_S2000x256_1_1_0_0_n_n : DotDims S2000x128 S256x128 S2000x256 where
  lhsContracting := [1]
  rhsContracting := [1]
  lhsNonContracting := [0]
  rhsNonContracting := [0]
  lhsBatch := []
  rhsBatch := []
  wf := dot_S2000x128_S256x128_S2000x256_1_1_0_0_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S2000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v3_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x256 : Shape := ⟨2, ![100000, 256]⟩
abbrev S1600000 : Shape := ⟨1, ![1600000]⟩
abbrev S128x256 : Shape := ⟨2, ![128, 256]⟩
abbrev S128 : Shape := ⟨1, ![128]⟩
abbrev S256x128 : Shape := ⟨2, ![256, 128]⟩
abbrev S256 : Shape := ⟨1, ![256]⟩
abbrev S100000x128 : Shape := ⟨2, ![100000, 128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S1x256 : Shape := ⟨2, ![1, 256]⟩

abbrev nBuf : Space → Nat
  | .hbm => 51
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .f32⟩
  | .hbm, ⟨2, _⟩ => ⟨S128x256, .f32⟩
  | .hbm, ⟨3, _⟩ => ⟨S128, .f32⟩
  | .hbm, ⟨4, _⟩ => ⟨S256x128, .f32⟩
  | .hbm, ⟨5, _⟩ => ⟨S256, .f32⟩
  | .hbm, ⟨6, _⟩ => ⟨S256x128, .f32⟩
  | .hbm, ⟨7, _⟩ => ⟨S256, .f32⟩
  | .hbm, ⟨8, _⟩ => ⟨S1600000, .i32⟩
  | .hbm, ⟨9, _⟩ => ⟨S1600000, .i32⟩
  | .hbm, ⟨10, _⟩ => ⟨S256x128, .f32⟩
  | .hbm, ⟨11, _⟩ => ⟨S100000x128, .f32⟩
  | .hbm, ⟨12, _⟩ => ⟨S1x128, .f32⟩
  | .hbm, ⟨13, _⟩ => ⟨S100000x128, .f32⟩
  | .hbm, ⟨14, _⟩ => ⟨S100000x128, .f32⟩
  | .hbm, ⟨15, _⟩ => ⟨S_, .f32⟩
  | .hbm, ⟨16, _⟩ => ⟨S100000x128, .f32⟩
  | .hbm, ⟨17, _⟩ => ⟨S100000x128, .f32⟩
  | .hbm, ⟨18, _⟩ => ⟨S_, .f32⟩
  | .hbm, ⟨19, _⟩ => ⟨S100000x128, .f32⟩
  | .hbm, ⟨20, _⟩ => ⟨S100000x128, .f32⟩
  | .hbm, ⟨21, _⟩ => ⟨S1600000x1, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S1600000x128, .f32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S_, .f32⟩
  | .hbm, ⟨38, _⟩ => ⟨S100000x128, .f32⟩
  | .hbm, ⟨39, _⟩ => ⟨S100000x128, .f32⟩
  | .hbm, ⟨40, _⟩ => ⟨S128x256, .f32⟩
  | .hbm, ⟨41, _⟩ => ⟨S100000x256, .f32⟩
  | .hbm, ⟨42, _⟩ => ⟨S1x256, .f32⟩
  | .hbm, ⟨43, _⟩ => ⟨S100000x256, .f32⟩
  | .hbm, ⟨44, _⟩ => ⟨S100000x256, .f32⟩
  | .hbm, ⟨45, _⟩ => ⟨S128x256, .f32⟩
  | .hbm, ⟨46, _⟩ => ⟨S100000x256, .f32⟩
  | .hbm, ⟨47, _⟩ => ⟨S100000x256, .f32⟩
  | .hbm, ⟨48, _⟩ => ⟨S1x256, .f32⟩
  | .hbm, ⟨49, _⟩ => ⟨S100000x256, .f32⟩
  | .hbm, ⟨50, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]

class Facts₀ : Prop where
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  transposes_S256x128_S128x256_1_0 : S256x128.Transposes [1, 0] S128x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x256_S100000x256_1_0_0_1_n_n_wf : DotDims.WF S100000x128 S128x256 S100000x256 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf

class Facts : Prop extends Facts₀ where

variable [Facts]
-- ==== Proof.KernelRun.lean ====
/-
  The kernel program's run with its result named.

  The program is: three reshapes of the bias vectors; the pooling region (a grid of 50 row blocks); sixteen host
  operations (the gather of squared rows along the edges, their scaling by the edge values and the scatter-add onto
  the destination rows); the combining region (the same grid). Every weakly fair execution terminates without a fault,
  and every unscoped buffer ends at the contents the last segment boundary gives it. Read at the result buffer this
  says: the result array is what the combining region's write-backs leave; the ten argument arrays end as launched.
-/
import proofs.«117527_j1580547970266_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the contents
    of the last segment boundary, and the argument arrays end as launched. -/
theorem run_result : θ_run defs (onTc (τ := τ) (main (F := F))) ⟨m, fun _ => 0, ρ⟩ (fun r => ∀ c : Dev nD,
      r.2.mem ((c.tc : Thread nD τ).loc main_v17) = W4 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v17 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Run

end
-- ==== Proof.LibRealValued.lean ====
/-
  Extended reals that are real numbers.

  On the extended reals the laws that cancel or distribute fail at the infinities, so a value proof that needs one
  first shows that the quantities involved are real. This file has the predicate "is a real number", its closure under
  the operations float programs are read with (sum, product, negation, maximum, absolute value, finite sums, a quotient
  by a nonzero real), and two uses: adding a real v to (q − v) gives q, for every extended real q (a straight-through
  quantisation step "v + (q − v)" returns q); and an entry whose absolute value compares below +∞, as a finiteness
  precondition states it, is a real number.
-/
import Idealize.ShloMosaic.PureOps.Ideal

noncomputable section

namespace Cert.LibRealValued

open Idealize.ShloMosaic

/-- An extended real that is a real number. -/
def IsReal (a : EReal) : Prop := ∃ r : ℝ, a = (r : EReal)

/-- The inclusion of the reals preserves maxima. -/
theorem coe_max (r s : ℝ) : ((Max.max r s : ℝ) : EReal) = Max.max (r : EReal) (s : EReal) :=
  EReal.coe_strictMono.monotone.map_max

theorem IsReal.coe (r : ℝ) : IsReal (r : EReal) := ⟨r, rfl⟩

theorem IsReal.add {a b : EReal} : IsReal a → IsReal b → IsReal (a + b)
  | ⟨r, hr⟩, ⟨s, hs⟩ => ⟨r + s, by rw [hr, hs, EReal.coe_add]⟩

theorem IsReal.mul {a b : EReal} : IsReal a → IsReal b → IsReal (a * b)
  | ⟨r, hr⟩, ⟨s, hs⟩ => ⟨r * s, by rw [hr, hs, EReal.coe_mul]⟩

theorem IsReal.neg {a : EReal} : IsReal a → IsReal (-a)
  | ⟨r, hr⟩ => ⟨-r, by rw [hr, EReal.coe_neg]⟩

theorem IsReal.max {a b : EReal} : IsReal a → IsReal b → IsReal (Max.max a b)
  | ⟨r, hr⟩, ⟨s, hs⟩ => ⟨Max.max r s, by rw [hr, hs, coe_max]⟩

/-- The absolute value, as the ideal reading of a float absolute value spells it. -/
theorem IsReal.abs {a : EReal} (h : IsReal a) : IsReal (Max.max a (-a)) := h.max h.neg

/-- A finite sum of reals is real. -/
theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

theorem IsReal.lt_top {a : EReal} : IsReal a → a < ⊤
  | ⟨r, hr⟩ => hr ▸ EReal.coe_lt_top r

/-- A quotient by a nonzero real is real. -/
theorem IsReal.div {a : EReal} {y : ℝ} (ha : IsReal a) (hy : y ≠ 0) : IsReal (Ideal.div a (y : EReal)) := by
  rw [Ideal.div_coe hy]; exact ha.mul ⟨_, rfl⟩

/-- Adding a real number to "q minus that number" gives q, for any extended real q. -/
theorem add_sub_cancel_real {a : EReal} (ha : IsReal a) (q : EReal) : a + (q - a) = q := by
  obtain ⟨r, rfl⟩ := ha
  induction q using EReal.rec with
  | bot => simp
  | top => simp
  | coe s => rw [← EReal.coe_sub, ← EReal.coe_add]; congr 1; ring

/-- An f32 entry whose absolute value compares below +∞ (the comparison a finiteness precondition makes, at the ideal
    values) is a real number. -/
theorem real_of_abs_lt_inf (a : Ideal .f32)
    (h : FloatOps.cmpf .olt (FloatOps.hostAbsf a) (FloatOps.ofBits (F := Ideal) .f32 0x7F800000#32) = 1#1) : IsReal a := by
  have htop : Ideal.ofBits .f32 0x7F800000#32 = ⊤ := by simp [Ideal.ofBits, Ideal.ieee]
  change Ideal.cmp .olt (Max.max (a : EReal) (-(a : EReal))) (Ideal.ofBits .f32 0x7F800000#32) = 1#1 at h
  rw [htop] at h
  unfold Ideal.cmp at h
  have hlt : Max.max (a : EReal) (-(a : EReal)) < ⊤ := by
    by_contra hn
    simp [hn] at h
  rw [max_lt_iff] at hlt
  induction a using EReal.rec with
  | bot => simp at hlt
  | top => simp at hlt
  | coe r => exact ⟨r, rfl⟩

end Cert.LibRealValued

end
-- ==== Proof.FiniteInputs.lean ====
/-
  From the precondition to real numbers.

  The precondition says, for each float argument, that every entry's absolute value compares below +∞, all these
  comparisons conjoined. An entry whose absolute value is below +∞ is neither +∞ nor -∞: it is a real number. The
  value proof uses this for the node features x, the edge values, and the pooling layer Wp, bp — the quantities whose
  sums must be real for the exponent 1/2 to be a square root.
-/
import proofs.«117527_j1580547970266_1_alg».proof.Pre_finite_inputs
import proofs.«117527_j1580547970266_1_alg».proof.Proof.LibRealValued
import Idealize.ShloMosaic.Lib.ReduceAll
import Idealize.ShloMosaic.Lib.Affine
import Idealize.ShloMosaic.Lib.ValueIdx
import Idealize.ShloMosaic.Lib.Pipeline.Value

noncomputable section

namespace Cert.FiniteInputs

open Idealize.ShloMosaic Cert.LibRealValued Cert.Pre_finite_inputs

/-- An array entry whose absolute value compares below the +∞ word, the word given to every entry from one scalar, is
    a real number. -/
theorem entry_real {s : Shape} (hb : (⟨0, ![]⟩ : Shape).BroadcastsInDim s (![] : Fin 0 → Fin s.rank)) (a : FVec Ideal s .f32)
    (i : s.Idx)
    (h : cmpf .olt (Host.absf a) (broadcastInDim s ![] hb (constant (F := Ideal) ⟨0, ![]⟩ .f32 0x7F800000#32)) i = 1#1) :
    IsReal (a i) := by
  refine real_of_abs_lt_inf (a i) ?_
  have hbc : broadcastInDim s ![] hb (constant (F := Ideal) ⟨0, ![]⟩ .f32 0x7F800000#32) i
      = FloatOps.ofBits (F := Ideal) .f32 0x7F800000#32 :=
    broadcastInDim_apply _ hb _ i (fun a => a.elim0) (fun a => a.elim0)
  rw [← hbc]
  exact h

instance : Subsingleton S_.Idx := ⟨fun a b => funext fun d => d.elim0⟩

/-- Under the precondition the entries of x, of the edge values, of Wp and of bp are real numbers. -/
theorem reals_of_pre [Facts] (a0 : FVec Ideal S100000x256 .f32) (a1 : FVec Ideal S1600000 .f32) (a2 : FVec Ideal S128x256 .f32)
    (a3 : FVec Ideal S128 .f32) (a4 : FVec Ideal S256x128 .f32) (a5 : FVec Ideal S256 .f32) (a6 : FVec Ideal S256x128 .f32)
    (a7 : FVec Ideal S256 .f32) (a8 a9 : IVec S1600000 32)
    (h : fn (F := Ideal) a0 a1 a2 a3 a4 a5 a6 a7 a8 a9 = fun _ => 1#1) :
    (∀ i, IsReal (a0 i)) ∧ (∀ i, IsReal (a1 i)) ∧ (∀ i, IsReal (a2 i)) ∧ (∀ i, IsReal (a3 i)) := by
  have h38 := congrFun h ValueIdx.ix0
  dsimp only [fn, fn_part1, fn_part2] at h38
  obtain ⟨h33, -⟩ := IntOp.andi_eq_one.mp h38
  obtain ⟨h28, -⟩ := IntOp.andi_eq_one.mp h33
  obtain ⟨h23, -⟩ := IntOp.andi_eq_one.mp h28
  obtain ⟨h18, -⟩ := IntOp.andi_eq_one.mp h23
  obtain ⟨h13, h17⟩ := IntOp.andi_eq_one.mp h18
  obtain ⟨h8, h12⟩ := IntOp.andi_eq_one.mp h13
  obtain ⟨h3, h7⟩ := IntOp.andi_eq_one.mp h8
  exact ⟨fun i => entry_real Facts.bcast_S_S100000x256 a0 i (Host.reduce_andi_all _ _ _ _ ValueIdx.ix0 h3 i),
    fun i => entry_real Facts.bcast_S_S1600000 a1 i (Host.reduce_andi_all _ _ _ _ ValueIdx.ix0 h7 i),
    fun i => entry_real Facts.bcast_S_S128x256 a2 i (Host.reduce_andi_all _ _ _ _ ValueIdx.ix0 h12 i),
    fun i => entry_real Facts.bcast_S_S128 a3 i (Host.reduce_andi_all _ _ _ _ ValueIdx.ix0 h17 i)⟩

end Cert.FiniteInputs

end
-- ==== Proof.LibMatmulZero.lean ====
/-
  A matrix product into a zero accumulator, read at one output index, at the extended reals.

  `matmul_zero_apply`: for a product that contracts ONE axis of extent `K`, the entry at an output index `j` is the sum
  over `k : Fin K` of the left operand at `li k` times the right operand at `ri k`, for ANY naming `li`, `ri` of the two
  operand indices whose coordinates are the product's own at `j` and the contracted position `k` (two per-axis
  hypotheses, closed at literal shapes by the dimension numbers' facts). It re-indexes the product's sum over its
  contraction shape to a sum over `Fin K`, so that a value proof can state a layer as `∑ k, a k * W k j`.
-/
import Idealize.ShloMosaic.Lib.ValueIdx
import Idealize.ShloMosaic.PureOps.Ideal.Laws

noncomputable section

namespace Cert.LibMatmulZero

open Idealize.ShloMosaic Idealize.ShloMosaic.ValueIdx

/-- A product contracting ONE axis of extent `K`, into the zero accumulator, read at an output index `j`: the sum over
    `k` of the left operand at `li k` times the right at `ri k`, for any naming `li`, `ri` of the operand indices whose
    coordinates are the product's own (`hl`, `hr'`). -/
theorem matmul_zero_apply {sl sr so : Shape} {φ₁ φ₂ : FTy} (d : DotDims sl sr so) (K : Nat) (hr : d.contr.rank = 1)
    (hs : d.contr.size ⟨0, by omega⟩ = K) (A : FVec Ideal sl φ₁) (B : FVec Ideal sr φ₂) (j : so.Idx)
    (li : Fin K → sl.Idx) (ri : Fin K → sr.Idx)
    (hl : ∀ k a, (d.lhsIdx j ((contrEquiv1 d K hr hs).symm k) a).val = (li k a).val)
    (hr' : ∀ k a, (d.rhsIdx j ((contrEquiv1 d K hr hs).symm k) a).val = (ri k a).val) :
    FloatOps.matmul d none A B (constant so .f32 0x00000000#32) j = ∑ k : Fin K, A (li k) * B (ri k) := by
  refine (Ideal.matmul_constant_zero_apply d none A B j).trans ?_
  rw [← Equiv.sum_comp (contrEquiv1 d K hr hs).symm]
  refine Finset.sum_congr rfl fun k _ => ?_
  rw [show d.lhsIdx j ((contrEquiv1 d K hr hs).symm k) = li k from funext fun a => Fin.ext (hl k a),
    show d.rhsIdx j ((contrEquiv1 d K hr hs).symm k) = ri k from funext fun a => Fin.ext (hr' k a)]

end Cert.LibMatmulZero

end
-- ==== Proof.LibMatmulRhsT.lean ====
/-
  A matrix product whose right operand is stored transposed, into a zero accumulator, read at an index, at the ideal
  values.

  For an `a × b` left operand and a `c × b` right operand (dimension numbers: contract the left's axis 1 with the
  right's axis 1, no batch axes — `A · Bᵀ`), entry `(p, n)` of the product is `Σ_k A(p, k) · B(n, k)`: the sum of the
  exact products, the zero the accumulator starts from adding nothing.
-/
import Idealize.ShloMosaic.Lib.ValueIdx
import Idealize.ShloMosaic.PureOps.Ideal.Laws
import proofs.«117527_j1580547970266_1_alg».proof.Proof.LibMatmulZero

noncomputable section

namespace Cert.LibMatmulRhsT

open Idealize.ShloMosaic Idealize.ShloMosaic.ValueIdx

variable {a b c : ℕ}

/-- The dimension numbers of an `a × b` by (`c × b`)ᵀ product over the shared axis. -/
abbrev rhsTDims (wf : DotDims.WF ⟨2, ![a, b]⟩ ⟨2, ![c, b]⟩ ⟨2, ![a, c]⟩ [1] [1] [0] [0] [] []) :
    DotDims ⟨2, ![a, b]⟩ ⟨2, ![c, b]⟩ ⟨2, ![a, c]⟩ where
  lhsContracting := [1]
  rhsContracting := [1]
  lhsNonContracting := [0]
  rhsNonContracting := [0]
  lhsBatch := []
  rhsBatch := []
  wf := wf

/-- THE PRODUCT READ AT `(p, n)`, for the record `rhsTDims`. -/
theorem rhsTDims_matmul_apply {φ₁ φ₂ : FTy} (wf : DotDims.WF ⟨2, ![a, b]⟩ ⟨2, ![c, b]⟩ ⟨2, ![a, c]⟩ [1] [1] [0] [0] [] [])
    (A : FVec Ideal ⟨2, ![a, b]⟩ φ₁) (B : FVec Ideal ⟨2, ![c, b]⟩ φ₂) (p : Fin a) (n : Fin c) :
    FloatOps.matmul (rhsTDims wf) none A B (constant ⟨2, ![a, c]⟩ .f32 0x00000000#32) (ix2 p n)
      = ∑ k : Fin b, A (ix2 p k) * B (ix2 n k) := by
  refine Cert.LibMatmulZero.matmul_zero_apply (rhsTDims wf) b rfl rfl A B (ix2 p n) (fun k => ix2 p k) (fun k => ix2 n k) ?_ ?_
  · intro k ax
    match ax with
    | ⟨0, _⟩ =>
      show ((rhsTDims wf).lhsIdx (ix2 p n) ((contrEquiv1 (rhsTDims wf) b rfl rfl).symm k) 0).val = p.val
      unfold DotDims.lhsIdx
      rw [dif_neg (show ¬(0 : Fin 2) ∈ (rhsTDims wf).lhsBatch from List.not_mem_nil),
        dif_pos (show (0 : Fin 2) ∈ (rhsTDims wf).lhsNonContracting from List.mem_singleton.mpr rfl)]
      rfl
    | ⟨1, _⟩ =>
      exact ((rhsTDims wf).lhsIdx_val_of_single rfl (ix2 p n) _).trans (contrEquiv1_symm_val (rhsTDims wf) b rfl rfl k)
  · intro k ax
    match ax with
    | ⟨0, _⟩ =>
      show ((rhsTDims wf).rhsIdx (ix2 p n) ((contrEquiv1 (rhsTDims wf) b rfl rfl).symm k) 0).val = n.val
      unfold DotDims.rhsIdx
      rw [dif_neg (show ¬(0 : Fin 2) ∈ (rhsTDims wf).rhsBatch from List.not_mem_nil),
        dif_pos (show (0 : Fin 2) ∈ (rhsTDims wf).rhsNonContracting from List.mem_singleton.mpr rfl)]
      rfl
    | ⟨1, _⟩ =>
      exact ((rhsTDims wf).rhsIdx_val_of_single rfl (ix2 p n) _).trans (contrEquiv1_symm_val (rhsTDims wf) b rfl rfl k)

/-- THE PRODUCT READ AT `(p, n)`, for any dimension-number record with the six lists of such a product (each
    hypothesis is `rfl` for a record written with those literal fields, whatever proves its `wf`). -/
theorem matmul_rhsT_apply {φ₁ φ₂ : FTy} (d : DotDims ⟨2, ![a, b]⟩ ⟨2, ![c, b]⟩ ⟨2, ![a, c]⟩)
    (hlc : d.lhsContracting = [1]) (hrc : d.rhsContracting = [1]) (hln : d.lhsNonContracting = [0])
    (hrn : d.rhsNonContracting = [0]) (hlb : d.lhsBatch = []) (hrb : d.rhsBatch = [])
    (A : FVec Ideal ⟨2, ![a, b]⟩ φ₁) (B : FVec Ideal ⟨2, ![c, b]⟩ φ₂) (p : Fin a) (n : Fin c) :
    FloatOps.matmul d none A B (constant ⟨2, ![a, c]⟩ .f32 0x00000000#32) (ix2 p n)
      = ∑ k : Fin b, A (ix2 p k) * B (ix2 n k) := by
  obtain ⟨lc, rc, ln, rn, lb, rb, wf⟩ := d
  dsimp only at hlc hrc hln hrn hlb hrb
  subst hlc hrc hln hrn hlb hrb
  exact rhsTDims_matmul_apply wf A B p n

end Cert.LibMatmulRhsT

end
-- ==== Proof.KernelBlocks.lean ====
/-
  What the two kernel bodies store, read at one entry of the block, on the extended reals.

  The pooling body, on a block of 2000 rows xb [2000, 256] with the whole Wp [128, 256] and the bias row bp [1, 128]:
    entry (p, q) of the first output is max (Σ_k xb(p, k) · Wp(q, k) + bp(0, q)) 0, and of the second that value
    times itself.
  The combining body, on blocks hb, ab [2000, 128] with the whole W1, W2 [256, 128] and bias rows b1, b2 [1, 256]:
    entry (p, q) is (Σ_k hb(p, k) · W1(q, k) + b1(0, q)) + Σ_k sqrt (max ab(p, k) 0) · W2(q, k) + b2(0, q).
  (Roundings to bf16 before the products are the identity on the extended reals, and a product into a zero
  accumulator is the plain sum of products.)
-/
import proofs.«117527_j1580547970266_1_alg».proof.Proof.Gen.KernelIdeal.Skeleton
import proofs.«117527_j1580547970266_1_alg».proof.Proof.LibMatmulRhsT
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Blocks

open Cert.KernelIdeal Cert.KernelIdeal.Gen Idealize.ShloMosaic Idealize.ShloMosaic.ValueIdx

/-- The pooling body's first store at entry (p, q). -/
theorem pool_at (v0 : Vec Ideal S2000x256 .f32) (v2 : Vec Ideal S128x256 .f32) (v5 : Vec Ideal S1x128 .f32)
    (p : Fin 2000) (q : Fin 128) :
    k0_pay1 (F := Ideal) v0 v2 v5 (ix2 p q)
      = Max.max ((∑ k : Fin 256, v0 (ix2 p k) * v2 (ix2 q k)) + v5 (ix2 (0 : Fin 1) q)) (Ideal.ofBits .f32 0x00000000#32) := by
  have hm := Cert.LibMatmulRhsT.matmul_rhsT_apply (a := 2000) (b := 256) (c := 128)
    dot_S2000x256_S128x256_S2000x128_1_1_0_0_n_n rfl rfl rfl rfl rfl rfl
    (truncf .bf16 v0 bitsLt_bf16_f32) (truncf .bf16 v2 bitsLt_bf16_f32) p q
  have hb := broadcastTo_1b_ab_apply (a := 2000) (b := 128) (shapeCast S1x128 v5 shapeCasts_S1x128_S1x128)
    broadcasts_S1x128_S2000x128 p q
  show Max.max (FloatOps.matmul (F := Ideal) dot_S2000x256_S128x256_S2000x128_1_1_0_0_n_n none (truncf .bf16 v0 bitsLt_bf16_f32)
      (truncf .bf16 v2 bitsLt_bf16_f32) (constant (F := Ideal) S2000x128 .f32 0x00000000#32) (ix2 p q)
      + broadcastTo S2000x128 (shapeCast S1x128 v5 shapeCasts_S1x128_S1x128) broadcasts_S1x128_S2000x128 (ix2 p q))
      (Ideal.ofBits .f32 0x00000000#32) = _
  rw [hm, hb, shapeCast_self]
  rfl

/-- The pooling body's second store is the first, entry by entry, times itself. -/
theorem pool_sq_at (v0 : Vec Ideal S2000x256 .f32) (v2 : Vec Ideal S128x256 .f32) (v5 : Vec Ideal S1x128 .f32)
    (j : S2000x128.Idx) :
    k0_pay2 (F := Ideal) v0 v2 v5 j = k0_pay1 (F := Ideal) v0 v2 v5 j * k0_pay1 (F := Ideal) v0 v2 v5 j := rfl

/-- The combining body's store at entry (p, q). -/
theorem combine_at (v0 v2 : Vec Ideal S2000x128 .f32) (v9 v11 : Vec Ideal S256x128 .f32) (v15 v20 : Vec Ideal S1x256 .f32)
    (p : Fin 2000) (q : Fin 256) :
    k1_pay1 (F := Ideal) v0 v2 v9 v11 v15 v20 (ix2 p q)
      = ((∑ k : Fin 128, v0 (ix2 p k) * v9 (ix2 q k)) + v15 (ix2 (0 : Fin 1) q)
          + ∑ k : Fin 128, Ideal.sqrt (Max.max (v2 (ix2 p k)) (Ideal.ofBits .f32 0x00000000#32)) * v11 (ix2 q k))
        + v20 (ix2 (0 : Fin 1) q) := by
  have hm1 := Cert.LibMatmulRhsT.matmul_rhsT_apply (a := 2000) (b := 128) (c := 256)
    dot_S2000x128_S256x128_S2000x256_1_1_0_0_n_n rfl rfl rfl rfl rfl rfl
    (truncf .bf16 (shapeCast S2000x128 v0 shapeCasts_S2000x128_S2000x128) bitsLt_bf16_f32) (truncf .bf16 v9 bitsLt_bf16_f32) p q
  have hm2 := Cert.LibMatmulRhsT.matmul_rhsT_apply (a := 2000) (b := 128) (c := 256)
    dot_S2000x128_S256x128_S2000x256_1_1_0_0_n_n rfl rfl rfl rfl rfl rfl
    (truncf .bf16 (sqrt (maximumf (shapeCast S2000x128 v2 shapeCasts_S2000x128_S2000x128)
      (broadcast S2000x128 (Scalar.ofBits (F := Ideal) .f32 0x00000000#32)))) bitsLt_bf16_f32) (truncf .bf16 v11 bitsLt_bf16_f32) p q
  have hb1 := broadcastTo_1b_ab_apply (a := 2000) (b := 256) (shapeCast S1x256 v15 shapeCasts_S1x256_S1x256)
    broadcasts_S1x256_S2000x256 p q
  have hb2 := broadcastTo_1b_ab_apply (a := 2000) (b := 256) (shapeCast S1x256 v20 shapeCasts_S1x256_S1x256)
    broadcasts_S1x256_S2000x256 p q
  show ((FloatOps.matmul (F := Ideal) dot_S2000x128_S256x128_S2000x256_1_1_0_0_n_n none
          (truncf .bf16 (shapeCast S2000x128 v0 shapeCasts_S2000x128_S2000x128) bitsLt_bf16_f32) (truncf .bf16 v9 bitsLt_bf16_f32)
          (constant (F := Ideal) S2000x256 .f32 0x00000000#32) (ix2 p q)
        + broadcastTo S2000x256 (shapeCast S1x256 v15 shapeCasts_S1x256_S1x256) broadcasts_S1x256_S2000x256 (ix2 p q))
      + FloatOps.matmul (F := Ideal) dot_S2000x128_S256x128_S2000x256_1_1_0_0_n_n none
          (truncf .bf16 (sqrt (maximumf (shapeCast S2000x128 v2 shapeCasts_S2000x128_S2000x128)
            (broadcast S2000x128 (Scalar.ofBits (F := Ideal) .f32 0x00000000#32)))) bitsLt_bf16_f32) (truncf .bf16 v11 bitsLt_bf16_f32)
          (constant (F := Ideal) S2000x256 .f32 0x00000000#32) (ix2 p q))
      + broadcastTo S2000x256 (shapeCast S1x256 v20 shapeCasts_S1x256_S1x256) broadcasts_S1x256_S2000x256 (ix2 p q) = _
  rw [hm1, hm2, hb1, hb2]
  simp only [shapeCast_self]
  rfl

end Cert.KernelIdeal.Blocks

end
-- ==== Proof.LibPowLaws.lean ====
/-
  Two laws of the real power function, read on the extended reals.

  A float program that squares by multiplying and one that raises to the exponent 2, and likewise a square root of
  a value clamped at zero against the exponent 1/2, agree on every real number: r ^ 2 = r * r for every real r, and
  r ^ (1/2) = sqrt (max r 0) for every real r (for r < 0 the real power function gives exp ((log |r|) / 2) * cos (π / 2) = 0,
  and the clamped square root gives sqrt 0 = 0). Both fail at -∞, so they are stated for real values only.
  The two exponents are given as the f32 words that spell them, 2.0 and 0.5. It builds on the predicate "is a real number"
  of LibRealValued, which it imports.
-/
import Idealize.ShloMosaic.PureOps.Ideal
import proofs.«117527_j1580547970266_1_alg».proof.Proof.LibRealValued

noncomputable section

namespace Cert.LibPowLaws

open Idealize.ShloMosaic Cert.LibRealValued

/-- The f32 word of 2.0 denotes the real 2. -/
theorem ofBits_two : Ideal.ofBits .f32 0x40000000#32 = ((2 : ℝ) : EReal) := by
  simp [Ideal.ofBits, Ideal.ieee, -EReal.coe_mul]; norm_num

/-- The f32 word of 0.5 denotes the real 1/2. -/
theorem ofBits_half : Ideal.ofBits .f32 0x3F000000#32 = ((1 / 2 : ℝ) : EReal) := by
  simp [Ideal.ofBits, Ideal.ieee, -EReal.coe_mul]; norm_num

/-- The f32 zero word denotes 0. -/
theorem ofBits_zero : Ideal.ofBits .f32 0x00000000#32 = 0 := by
  simp [Ideal.ofBits, Ideal.ieee]

/-- A real number to the exponent 2 is its product with itself. -/
theorem pow_two_of_real {x : EReal} (hx : IsReal x) : Ideal.pow x ((2 : ℝ) : EReal) = x * x := by
  obtain ⟨r, rfl⟩ := hx
  rw [Ideal.pow_coe_coe, ← EReal.coe_mul]
  congr 1
  show r ^ (2 : ℝ) = r * r
  rw [Real.rpow_two, sq]

/-- A real number to the exponent 1/2 is the square root of its positive part. -/
theorem pow_half_of_real {a : EReal} (ha : IsReal a) :
    Ideal.pow a ((1 / 2 : ℝ) : EReal) = Ideal.sqrt (Max.max a 0) := by
  obtain ⟨r, rfl⟩ := ha
  have hmax : Max.max ((r : ℝ) : EReal) 0 = ((Max.max r 0 : ℝ) : EReal) := by
    rw [coe_max, EReal.coe_zero]
  rw [hmax, Ideal.pow_coe_coe, Ideal.sqrt_coe, if_neg (not_lt.mpr (le_max_right r 0))]
  congr 1
  show r ^ (1 / 2 : ℝ) = Real.sqrt (Max.max r 0)
  rw [← Real.sqrt_eq_rpow]
  rcases le_total 0 r with h | h
  · rw [max_eq_left h]
  · rw [max_eq_right h, Real.sqrt_eq_zero_of_nonpos h, Real.sqrt_zero]

end Cert.LibPowLaws

end
-- ==== Proof.RefRelu.lean ====
/-
  The reference's first two stages on the extended reals.

  With x the node features [100000, 256], Wp [128, 256] and bp [128] the pooling layer:
    relu stage   h(n, p) = max (Σ_k x(n, k) · Wp(p, k) + bp(p)) 0, a real number when x, Wp, bp hold real numbers;
    power stage  h(n, p) ^ 2, which is h(n, p) · h(n, p) because h(n, p) is real.
-/
import proofs.«117527_j1580547970266_1_alg».proof.Proof.Gen.ReferenceIdeal.Read
import proofs.«117527_j1580547970266_1_alg».proof.Proof.LibRealValued
import proofs.«117527_j1580547970266_1_alg».proof.Proof.LibPowLaws

noncomputable section

namespace Cert.RefFacts

open Cert.ReferenceIdeal Cert.ReferenceIdeal.Read Idealize.ShloMosaic Cert.LibRealValued Cert.LibPowLaws

/-- A float array of the given shape, at the extended reals. -/
abbrev Arr (s : Shape) : Type := (⟨s, .f32⟩ : BufTy).Contents (Elt Ideal)
/-- An int32 array of the given shape. -/
abbrev IArr (s : Shape) : Type := (⟨s, .i32⟩ : BufTy).Contents (Elt Ideal)

variable (x0 : Arr S100000x256) (x1 : Arr S1600000) (x2 : Arr S128x256) (x3 : Arr S128) (x4 : Arr S256x128)
  (x5 : Arr S256) (x6 : Arr S256x128) (x7 : Arr S256) (x8 x9 : IArr S1600000)

/-! ## The relu stage -/

/-- The relu stage at an index: the maximum with zero of the row-by-row product plus the bias. -/
theorem relu_apply (i : S100000x128.Idx) :
    val_main_v5 (F := Ideal) x0 x2 x3 i
      = Max.max ((∑ k : Fin 256, x0 (lidx_main_v1 i k) * x2 (idx_main_v0 (ridx_main_v1 i k))) + x3 (idx_main_v2 (idx_main_v3 i)))
          (Ideal.ofBits .f32 0x00000000#32) := by
  rw [val_main_v5_apply, val_main_v4_apply, val_main_v1_apply, val_main_v3_apply, val_main_v2_apply,
    val_main_call0_v0_apply, val_main_call0_cst_apply]
  simp only [val_main_v0_apply]
  rfl

/-- Over real inputs the relu stage holds real numbers. -/
theorem relu_real (h0 : ∀ i, IsReal (x0 i)) (h2 : ∀ i, IsReal (x2 i)) (h3 : ∀ i, IsReal (x3 i)) (i : S100000x128.Idx) :
    IsReal (val_main_v5 (F := Ideal) x0 x2 x3 i) := by
  rw [relu_apply, ofBits_zero]
  exact ((IsReal.sum _ _ fun k => (h0 _).mul (h2 _)).add (h3 _)).max ⟨0, by simp⟩

/-! ## The power stage -/

/-- Over real inputs the stage "to the exponent 2" is the relu stage times itself. -/
theorem square_stage (h0 : ∀ i, IsReal (x0 i)) (h2 : ∀ i, IsReal (x2 i)) (h3 : ∀ i, IsReal (x3 i)) :
    val_main_v7 (F := Ideal) x0 x2 x3
      = fun i => val_main_v5 (F := Ideal) x0 x2 x3 i * val_main_v5 (F := Ideal) x0 x2 x3 i := by
  funext i
  rw [val_main_v7_apply, val_main_v6_apply, val_main_cst_apply]
  show Ideal.pow (val_main_v5 (F := Ideal) x0 x2 x3 i) (Ideal.ofBits .f32 0x40000000#32) = _
  rw [ofBits_two]
  exact pow_two_of_real (relu_real x0 x2 x3 h0 h2 h3 i)

end Cert.RefFacts

end
-- ==== Proof.PoolRegion.lean ====
/-
  The pooling region: what its two output arrays hold when it ends.

  The region runs the pooling body at 50 grid points; point t stages rows [2000 t, 2000 t + 2000) of the node features
  x, the whole Wp and the bias row (bp reshaped to [1, 128]), and writes back rows [2000 t, 2000 t + 2000) of its two
  outputs. Entry (p, q) of the block written at point t is the body's formula on the staged blocks, which is the relu
  stage h at the array entry (2000 t + p, q): the staged x-row is row 2000 t + p of x, and Wp, bp are staged whole. The
  50 row blocks tile the 100000 rows, so when the region ends the first output array is h and the second is h · h,
  entry by entry.
-/
import proofs.«117527_j1580547970266_1_alg».proof.Proof.Gen.KernelIdeal.Frame
import proofs.«117527_j1580547970266_1_alg».proof.Proof.KernelBlocks
import proofs.«117527_j1580547970266_1_alg».proof.Proof.RefRelu
import Idealize.ShloMosaic.Lib.Pipeline.Value
import Idealize.ShloMosaic.Lib.StableHlo.Run
import Idealize.ShloMosaic.Lib.ValueIdx

set_option maxRecDepth 16384

noncomputable section

namespace Cert.KernelIdeal.Pool

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The relu stage of the launch contents of x, Wp, bp. -/
abbrev hOf (c : Dev nD) : Cert.RefFacts.Arr Cert.ReferenceIdeal.S100000x128 :=
  Cert.ReferenceIdeal.Read.val_main_v5 (F := Ideal) (m ((c : Thread nD τ).loc main_arg0)) (m ((c : Thread nD τ).loc main_arg2))
    (m ((c : Thread nD τ).loc main_arg3))

/-! ## What the region finds in its three input arrays -/

theorem entry_x (c : Dev nD) : V1 m ρ c main_arg0 = m ((c : Thread nD τ).loc main_arg0) :=
  (after_of_forall_not_mem (b := Proc.devRef .tc main_arg0) _ _ (List.forall_iff_forall_mem.mp (by
    simp only [hostOps0, List.Forall, reshape_writes, Finset.mem_singleton]
    repeat' apply And.intro
    all_goals exact devRef_ne_of_ne (by decide)))).trans rfl

theorem entry_w (c : Dev nD) : V1 m ρ c main_arg2 = m ((c : Thread nD τ).loc main_arg2) :=
  (after_of_forall_not_mem (b := Proc.devRef .tc main_arg2) _ _ (List.forall_iff_forall_mem.mp (by
    simp only [hostOps0, List.Forall, reshape_writes, Finset.mem_singleton]
    repeat' apply And.intro
    all_goals exact devRef_ne_of_ne (by decide)))).trans rfl

/-- The bias row is bp viewed as one row. -/
theorem entry_b (c : Dev nD) :
    V1 m ρ c main_v0 = fun i => shapeCast S1x128 (m ((c : Thread nD τ).loc main_arg3)) shapeCasts_S128_S1x128 i := by
  show after hostOps0 (W0 m ρ c) (Proc.devRef .tc main_v0) = _
  after_results
  rfl

/-! ## The grid's index maps -/

theorem hz : (![0, 0] : Fin 2 → Nat) = fun _ => 0 := funext fun a => by fin_cases a <;> rfl

/-- Point t stages row block t of x and of both outputs; Wp and the bias row are staged whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## The staged blocks, read where the relu stage reads the arrays -/

/-- The staged x-block's row p is row 2000 t + p of x. -/
theorem read_x (c : Dev nD) (t : Fin cfg0.N) (p : Fin 2000) (k : Fin 256) (i : Cert.ReferenceIdeal.S100000x128.Idx)
    (h0 : (i 0).val = t.val * 2000 + p.val) :
    iblk0 (V1 m ρ) c 0 t (ix2 p k)
      = m ((c : Thread nD τ).loc main_arg0) (Cert.ReferenceIdeal.Read.lidx_main_v1 i k) := by
  obtain ⟨e0, e1, -⟩ := idx_facts t
  show V1 m ρ c main_arg0 (((cfg0.win 0).blk t).view.emb (ix2 p k)) = _
  rw [entry_x]
  refine congrArg _ (funext fun a => Fin.ext ?_)
  match a with
  | ⟨0, _⟩ => show win0_0.index t (0 : Fin 2) * 2000 + 1 * p.val = (i 0).val; omega
  | ⟨1, _⟩ => show win0_0.index t (1 : Fin 2) * 256 + 1 * k.val = k.val; omega

/-- The staged Wp is Wp. -/
theorem read_w (c : Dev nD) (t : Fin cfg0.N) (q : Fin 128) (k : Fin 256) (i : Cert.ReferenceIdeal.S100000x128.Idx)
    (h1 : (i 1).val = q.val) :
    iblk0 (V1 m ρ) c 1 t (ix2 q k)
      = m ((c : Thread nD τ).loc main_arg2) (Cert.ReferenceIdeal.Read.idx_main_v0 (Cert.ReferenceIdeal.Read.ridx_main_v1 i k)) := by
  obtain ⟨-, -, e2, e3, -⟩ := idx_facts t
  show V1 m ρ c main_arg2 (((cfg0.win 1).blk t).view.emb (ix2 q k)) = _
  rw [entry_w]
  refine congrArg _ (funext fun a => Fin.ext ?_)
  match a with
  | ⟨0, _⟩ => show win0_1.index t (0 : Fin 2) * 128 + 1 * q.val = (i 1).val; omega
  | ⟨1, _⟩ => show win0_1.index t (1 : Fin 2) * 256 + 1 * k.val = k.val; omega

/-- The staged bias row's entry q is bp(q). -/
theorem read_b (c : Dev nD) (t : Fin cfg0.N) (q : Fin 128) (i : Cert.ReferenceIdeal.S100000x128.Idx)
    (h1 : (i 1).val = q.val) :
    iblk0 (V1 m ρ) c 2 t (ix2 (0 : Fin 1) q)
      = m ((c : Thread nD τ).loc main_arg3) (Cert.ReferenceIdeal.Read.idx_main_v2 (Cert.ReferenceIdeal.Read.idx_main_v3 i)) := by
  obtain ⟨-, -, -, -, e4, e5, -⟩ := idx_facts t
  show V1 m ρ c main_v0 (((cfg0.win 2).blk t).view.emb (ix2 (0 : Fin 1) q)) = _
  rw [entry_b]
  refine (shapeCast_addUnit_apply ![128] (m ((c : Thread nD τ).loc main_arg3)) shapeCasts_S128_S1x128 _).trans ?_
  refine congrArg _ (funext fun a => Fin.ext ?_)
  match a with
  | ⟨0, _⟩ => show win0_2.index t (1 : Fin 2) * 128 + 1 * q.val = (i 1).val; omega

/-- The body's first store at entry (p, q) of point t's block is the relu stage at any array index with row
    2000 t + p and column q. -/
theorem pool_point (c : Dev nD) (t : Fin cfg0.N) (p : Fin 2000) (q : Fin 128) (i : Cert.ReferenceIdeal.S100000x128.Idx)
    (h0 : (i 0).val = t.val * 2000 + p.val) (h1 : (i 1).val = q.val) :
    k0_pay1 (F := Ideal) (iblk0 (V1 m ρ) c 0 t) (iblk0 (V1 m ρ) c 1 t) (iblk0 (V1 m ρ) c 2 t) (ix2 p q) = hOf m c i :=
  (Cert.KernelIdeal.Blocks.pool_at (iblk0 (V1 m ρ) c 0 t) (iblk0 (V1 m ρ) c 1 t) (iblk0 (V1 m ρ) c 2 t) p q).trans
    ((congrArg₂ (fun a b : EReal => Max.max a b)
      (congrArg₂ (fun a b : EReal => a + b)
        (Finset.sum_congr rfl fun k _ => congrArg₂ (fun a b : EReal => a * b) (read_x m ρ c t p k i h0) (read_w m ρ c t q k i h1))
        (read_b m ρ c t q i h1)) rfl).trans
      (Cert.RefFacts.relu_apply (m ((c : Thread nD τ).loc main_arg0)) (m ((c : Thread nD τ).loc main_arg2))
        (m ((c : Thread nD τ).loc main_arg3)) i).symm)

/-! ## What a point writes back -/

/-- Point t writes back block t of the relu stage into the first output. -/
theorem flushed_h (c : Dev nD) (t : Fin cfg0.N) :
    (dat0 (V1 m ρ) c).flushed 3 t = ((cfg0.win 3).blk t).view.read (Elt Ideal) (hOf m c) := by
  show (cfg0.win 3).cut (grid0.coords t) ((dat0 (V1 m ρ) c).after 3 t) = _
  rw [after0_3]
  unfold out0_3
  rw [View.canon_unit_zero hz]
  simp only [View.ld_unit_zero (S := S2000x256) hz, View.ld_unit_zero (S := S128x256) hz, View.ld_unit_zero (S := S1x128) hz]
  obtain ⟨-, -, -, -, -, -, e6, e7, -⟩ := idx_facts t
  funext j
  obtain ⟨p, q, rfl⟩ : ∃ (p : Fin 2000) (q : Fin 128), j = ix2 p q := ⟨j 0, j 1, eq_ix2 j⟩
  show k0_pay1 (F := Ideal) (iblk0 (V1 m ρ) c 0 t) (iblk0 (V1 m ρ) c 1 t) (iblk0 (V1 m ρ) c 2 t) (ix2 p q)
    = hOf m c (((cfg0.win 3).blk t).view.emb (ix2 p q))
  exact pool_point m ρ c t p q _
    (by show win0_3.index t (0 : Fin 2) * 2000 + 1 * p.val = _; omega)
    (by show win0_3.index t (1 : Fin 2) * 128 + 1 * q.val = _; omega)

/-- Point t writes back block t of the relu stage's squares into the second output. -/
theorem flushed_hp (c : Dev nD) (t : Fin cfg0.N) :
    (dat0 (V1 m ρ) c).flushed 4 t
      = ((cfg0.win 4).blk t).view.read (Elt Ideal) (fun i => hOf m c i * hOf m c i) := by
  show (cfg0.win 4).cut (grid0.coords t) ((dat0 (V1 m ρ) c).after 4 t) = _
  rw [after0_4]
  unfold out0_4
  rw [View.canon_unit_zero hz]
  simp only [View.ld_unit_zero (S := S2000x256) hz, View.ld_unit_zero (S := S128x256) hz, View.ld_unit_zero (S := S1x128) hz]
  obtain ⟨-, -, -, -, -, -, -, -, e8, e9⟩ := idx_facts t
  funext j
  obtain ⟨p, q, rfl⟩ : ∃ (p : Fin 2000) (q : Fin 128), j = ix2 p q := ⟨j 0, j 1, eq_ix2 j⟩
  show k0_pay2 (F := Ideal) (iblk0 (V1 m ρ) c 0 t) (iblk0 (V1 m ρ) c 1 t) (iblk0 (V1 m ρ) c 2 t) (ix2 p q)
    = hOf m c (((cfg0.win 4).blk t).view.emb (ix2 p q)) * hOf m c (((cfg0.win 4).blk t).view.emb (ix2 p q))
  have hp := pool_point m ρ c t p q (((cfg0.win 4).blk t).view.emb (ix2 p q))
    (by show win0_4.index t (0 : Fin 2) * 2000 + 1 * p.val = _; omega)
    (by show win0_4.index t (1 : Fin 2) * 128 + 1 * q.val = _; omega)
  exact (Cert.KernelIdeal.Blocks.pool_sq_at (iblk0 (V1 m ρ) c 0 t) (iblk0 (V1 m ρ) c 1 t) (iblk0 (V1 m ρ) c 2 t) (ix2 p q)).trans
    (congrArg₂ (fun a b : EReal => a * b) hp hp)

/-! ## The row blocks tile the arrays -/

theorem mem_blk_h (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v3_0).slice (win0_3.rect t)).set ↔ _
  rw [View.set_slice_whole, Rect.mem_set_unit]
  exact Iff.rfl

theorem mem_blk_hp (t : Fin cfg0.N) (i : S100000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v3_1).slice (win0_4.rect t)).set ↔ _
  rw [View.set_slice_whole, Rect.mem_set_unit]
  exact Iff.rfl

/-- Row r lies in the block of point r / 2000. -/
theorem cover_h (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : grid0.N = 50 := N_0
  have ht : (i 0).val / 2000 < cfg0.N := by show (i 0).val / 2000 < grid0.N; rw [hN]; omega
  obtain ⟨-, -, -, -, -, -, e6, e7, -⟩ := idx_facts ⟨(i 0).val / 2000, ht⟩
  refine ⟨⟨(i 0).val / 2000, ht⟩, flush0_3 _, ?_⟩
  rw [mem_blk_h]
  intro a
  match a with
  | ⟨0, _⟩ =>
    show win0_3.index ⟨(i 0).val / 2000, ht⟩ (0 : Fin 2) * 2000 ≤ (i 0).val ∧ (i 0).val < win0_3.index ⟨(i 0).val / 2000, ht⟩ (0 : Fin 2) * 2000 + 2000
    rw [e6]; show (i 0).val / 2000 * 2000 ≤ (i 0).val ∧ (i 0).val < (i 0).val / 2000 * 2000 + 2000; omega
  | ⟨1, _⟩ =>
    show win0_3.index ⟨(i 0).val / 2000, ht⟩ (1 : Fin 2) * 128 ≤ (i 1).val ∧ (i 1).val < win0_3.index ⟨(i 0).val / 2000, ht⟩ (1 : Fin 2) * 128 + 128
    rw [e7]; omega

theorem cover_hp (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  have hN : grid0.N = 50 := N_0
  have ht : (i 0).val / 2000 < cfg0.N := by show (i 0).val / 2000 < grid0.N; rw [hN]; omega
  obtain ⟨-, -, -, -, -, -, -, -, e8, e9⟩ := idx_facts ⟨(i 0).val / 2000, ht⟩
  refine ⟨⟨(i 0).val / 2000, ht⟩, flush0_4 _, ?_⟩
  rw [mem_blk_hp]
  intro a
  match a with
  | ⟨0, _⟩ =>
    show win0_4.index ⟨(i 0).val / 2000, ht⟩ (0 : Fin 2) * 2000 ≤ (i 0).val ∧ (i 0).val < win0_4.index ⟨(i 0).val / 2000, ht⟩ (0 : Fin 2) * 2000 + 2000
    rw [e8]; show (i 0).val / 2000 * 2000 ≤ (i 0).val ∧ (i 0).val < (i 0).val / 2000 * 2000 + 2000; omega
  | ⟨1, _⟩ =>
    show win0_4.index ⟨(i 0).val / 2000, ht⟩ (1 : Fin 2) * 128 ≤ (i 1).val ∧ (i 1).val < win0_4.index ⟨(i 0).val / 2000, ht⟩ (1 : Fin 2) * 128 + 128
    rw [e9]; omega

/-! ## The two output arrays when the region ends -/

/-- The first output array ends holding the relu stage. -/
theorem final_h (c : Dev nD) : (dat0 (V1 m ρ) c).arrAt 3 cfg0.N = hOf m c :=
  (dat0 (V1 m ρ) c).arrAt_eq_of_cover 3 (hOf m c) (fun t _ => flushed_h m ρ c t) cover_h

/-- The second output array ends holding the relu stage's squares. -/
theorem final_hp (c : Dev nD) : (dat0 (V1 m ρ) c).arrAt 4 cfg0.N = fun i => hOf m c i * hOf m c i :=
  (dat0 (V1 m ρ) c).arrAt_eq_of_cover 4 (fun i => hOf m c i * hOf m c i) (fun t _ => flushed_hp m ρ c t) cover_hp

end Cert.KernelIdeal.Pool

end
-- ==== Proof.LibScatterReal.lean ====
/-
  A host scatter-add of real numbers, read on the extended reals, gives real numbers.

  At the ideal values the host's float scatter-add leaves in each entry its old value plus the finite sum of the updates
  that land on it. So real entries and real updates give real entries, whatever the index arrays hold
  (`scatterAdd_real`); and in the pattern "gather rows of a table, scale them, scatter-add them" — jax's
  segment_sum (ev[:, None] * table[src], dst) — a real table, real factors and real starting entries give real entries
  (`gatherScatter_real`). Stated over arbitrary shapes, so that nothing about a concrete array's size is ever
  evaluated. It imports LibRealValued (the predicate "is a real number").
-/
import Idealize.ShloMosaic.PureOps.Ideal
import Idealize.ShloMosaic.PureOps
import proofs.«117527_j1580547970266_1_alg».proof.Proof.LibRealValued

noncomputable section

namespace Cert.LibScatterReal

open Idealize.ShloMosaic Cert.LibRealValued

/-- A scatter-add of real updates onto real entries leaves real entries, whatever the index arrays say: each entry is
    its old value plus a finite sum of updates. -/
theorem scatterAdd_real {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact (hx i).add (IsReal.sum _ _ hu)

/-- Rows of a real table gathered, scaled by real factors and scatter-added onto real entries give real entries. -/
theorem gatherScatter_real {s si su st sg : Shape} (sd : ScatterDims s si su) (gd : GatherDims st sg su) {w w' : Nat}
    (z : FVec Ideal s .f32) (idx : IVec si w) (ev : FVec Ideal su .f32) (tbl : FVec Ideal st .f32) (gidx : IVec sg w')
    (hz : ∀ i, IsReal (z i)) (hev : ∀ j, IsReal (ev j)) (ht : ∀ i, IsReal (tbl i)) (i : s.Idx) :
    IsReal (Host.scatterAdd (F := Ideal) (φ := .f32) sd z idx (mulf (F := Ideal) (φ := .f32) ev (Host.gather gd tbl gidx)) i) := by
  show IsReal (Ideal.hostScatterAdd sd z idx (mulf (F := Ideal) (φ := .f32) ev (Host.gather gd tbl gidx)) i)
  refine scatterAdd_real sd z idx _ hz (fun j => ?_) i
  show IsReal (ev j * tbl (gd.operandIdx j gidx))
  exact (hev j).mul (ht _)

end Cert.LibScatterReal

end
-- ==== Proof.RefEdge.lean ====
/-
  The reference's edge stage on the extended reals.

  a(n, p) = 0 + Σ over the edges e whose destination is row n of ev(e) · (table)(src e, p): the rows of a table at the
  source ends, each scaled by its edge's value, summed onto the destination rows from zero. It is ONE function of the
  table it gathers from; the reference applies it to its power stage. A finite sum of products of real numbers is
  real, so a table of real numbers and real edge values give real sums.
-/
import proofs.«117527_j1580547970266_1_alg».proof.Proof.RefRelu
import proofs.«117527_j1580547970266_1_alg».proof.Proof.LibScatterReal

noncomputable section

namespace Cert.RefFacts

open Cert.ReferenceIdeal Cert.ReferenceIdeal.Read Idealize.ShloMosaic Cert.LibRealValued Cert.LibPowLaws Cert.LibScatterReal

variable (x0 : Arr S100000x256) (x1 : Arr S1600000) (x2 : Arr S128x256) (x3 : Arr S128) (x8 x9 : IArr S1600000)

/-- The edge stage as a function of the table it gathers rows from. -/
def edgeSum (tbl : Arr S100000x128) : Arr S100000x128 :=
  Host.scatterAdd (F := Ideal) (φ := .f32) scatter_S100000x128_S1600000x1_S1600000x128_1_0_0_1 (val_main_v18 (F := Ideal)) (val_main_v19 (F := Ideal) x9)
    (mulf (F := Ideal) (φ := .f32) (val_main_v16 (F := Ideal) x1)
      (Host.gather gather_S100000x128_S1600000x1_S1600000x128_1_0_n_n_0_1_1128 tbl (val_main_v14 (F := Ideal) x8)))

/-- The reference's edge stage is `edgeSum` of its power stage. -/
theorem edge_stage : val_main_v20 (F := Ideal) x0 x1 x2 x3 x8 x9 = edgeSum x1 x8 x9 (val_main_v7 (F := Ideal) x0 x2 x3) := by
  unfold val_main_v20 val_main_v17 val_main_v15 edgeSum
  rfl

/-- The array of zeros the sums start from holds real numbers. -/
theorem zeros_real (i : S100000x128.Idx) : IsReal (val_main_v18 (F := Ideal) i) := by
  rw [val_main_v18_apply, val_main_cst_1_apply, Ideal.ofBits_def, ofBits_zero]
  exact ⟨0, by simp⟩

/-- The edge values, repeated along each row, are real when the edge values are. -/
theorem scale_real (h1 : ∀ i, IsReal (x1 i)) (j : S1600000x128.Idx) : IsReal (val_main_v16 (F := Ideal) x1 j) := by
  rw [val_main_v16_apply, val_main_v8_apply]
  exact h1 _

/-- A table of real numbers and real edge values give real sums. -/
theorem edgeSum_real (tbl : Arr S100000x128) (ht : ∀ i, IsReal (tbl i)) (h1 : ∀ i, IsReal (x1 i)) (i : S100000x128.Idx) :
    IsReal (edgeSum x1 x8 x9 tbl i) :=
  gatherScatter_real scatter_S100000x128_S1600000x1_S1600000x128_1_0_0_1 gather_S100000x128_S1600000x1_S1600000x128_1_0_n_n_0_1_1128
    (val_main_v18 (F := Ideal)) (val_main_v19 (F := Ideal) x9) (val_main_v16 (F := Ideal) x1) tbl (val_main_v14 (F := Ideal) x8)
    zeros_real (scale_real x1 h1) ht i

end Cert.RefFacts

end
-- ==== Proof.EdgeHost.lean ====
/-
  Between the two regions: what the combining region finds in its six input arrays.

  The sixteen host operations between the regions gather the rows of the pooling region's second output at the source
  ends of the edges, scale each by its edge's value and sum them onto the destination rows from zero: the edge stage
  `edgeSum` of that array. They write neither of the pooling region's outputs nor any argument, and the three bias
  reshapes before the pooling region write no argument either. So the combining region finds: the relu stage h, the
  edge stage of h · h, W1, b1 as one row, W2, b2 as one row.
-/
import proofs.«117527_j1580547970266_1_alg».proof.Proof.PoolRegion
import proofs.«117527_j1580547970266_1_alg».proof.Proof.RefEdge

set_option maxRecDepth 16384

noncomputable section

namespace Cert.KernelIdeal.Mid

open Cert.KernelIdeal Cert.KernelIdeal.Gen Cert.KernelIdeal.Pool
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- A buffer that the three bias reshapes do not write holds its launch contents after them. -/
theorem before_pool (c : Dev nD) (b : Ref sig .tc) (hb : b ≠ main_v0 ∧ b ≠ main_v1 ∧ b ≠ main_v2) :
    W1 m ρ c (Proc.devRef .tc b) = m ((c : Thread nD τ).loc b) :=
  (after_of_forall_not_mem (b := Proc.devRef .tc b) _ _ (List.forall_iff_forall_mem.mp (by
    simp only [hostOps0, List.Forall, reshape_writes, Finset.mem_singleton]
    exact ⟨devRef_ne_of_ne hb.1, devRef_ne_of_ne hb.2.1, devRef_ne_of_ne hb.2.2⟩))).trans rfl

/-- A buffer that the sixteen operations between the regions do not write holds after them what the pooling region
    left. -/
theorem between (c : Dev nD) (b : Ref sig .tc)
    (hb : b ≠ main_v4 ∧ b ≠ main_c ∧ b ≠ main_v5 ∧ b ≠ main_v6 ∧ b ≠ main_c_0 ∧ b ≠ main_v7 ∧ b ≠ main_v8 ∧ b ≠ main_v9
      ∧ b ≠ main_v10 ∧ b ≠ main_v11 ∧ b ≠ main_v12 ∧ b ≠ main_v13 ∧ b ≠ main_cst ∧ b ≠ main_v14 ∧ b ≠ main_v15 ∧ b ≠ main_v16) :
    W3 m ρ c (Proc.devRef .tc b) = W2 m ρ c (Proc.devRef .tc b) :=
  after_of_forall_not_mem (b := Proc.devRef .tc b) _ _ (List.forall_iff_forall_mem.mp (by
    simp only [hostOps1, List.Forall, nullary_writes, unary_writes, binary_writes, ternary_writes, Finset.mem_singleton]
    obtain ⟨h1, h2, h3, h4, h5, h6, h7, h8, h9, h10, h11, h12, h13, h14, h15, h16⟩ := hb
    exact ⟨devRef_ne_of_ne h1, devRef_ne_of_ne h2, devRef_ne_of_ne h3, devRef_ne_of_ne h4, devRef_ne_of_ne h5, devRef_ne_of_ne h6,
      devRef_ne_of_ne h7, devRef_ne_of_ne h8, devRef_ne_of_ne h9, devRef_ne_of_ne h10, devRef_ne_of_ne h11, devRef_ne_of_ne h12,
      devRef_ne_of_ne h13, devRef_ne_of_ne h14, devRef_ne_of_ne h15, devRef_ne_of_ne h16⟩))

/-! ## The arguments, when the pooling region has ended -/

theorem after_pool_ev (c : Dev nD) : W2 m ρ c (Proc.devRef .tc main_arg1) = m ((c : Thread nD τ).loc main_arg1) :=
  (W2_of_ne m ρ c main_arg1 (by decide)).trans (before_pool m ρ c main_arg1 (by decide))
theorem after_pool_src (c : Dev nD) : W2 m ρ c (Proc.devRef .tc main_arg8) = m ((c : Thread nD τ).loc main_arg8) :=
  (W2_of_ne m ρ c main_arg8 (by decide)).trans (before_pool m ρ c main_arg8 (by decide))
theorem after_pool_dst (c : Dev nD) : W2 m ρ c (Proc.devRef .tc main_arg9) = m ((c : Thread nD τ).loc main_arg9) :=
  (W2_of_ne m ρ c main_arg9 (by decide)).trans (before_pool m ρ c main_arg9 (by decide))

/-! ## The combining region's six inputs -/

/-- Its first input is the relu stage. -/
theorem entry_h (c : Dev nD) : V3 m ρ c main_v3_0 = hOf m c :=
  (between m ρ c main_v3_0 (by decide)).trans ((W2_arr m ρ c 3).trans (final_h m ρ c))

/-- Its third and fifth inputs are W1 and W2. -/
theorem entry_w1 (c : Dev nD) : V3 m ρ c main_arg4 = m ((c : Thread nD τ).loc main_arg4) :=
  (between m ρ c main_arg4 (by decide)).trans ((W2_of_ne m ρ c main_arg4 (by decide)).trans (before_pool m ρ c main_arg4 (by decide)))
theorem entry_w2 (c : Dev nD) : V3 m ρ c main_arg6 = m ((c : Thread nD τ).loc main_arg6) :=
  (between m ρ c main_arg6 (by decide)).trans ((W2_of_ne m ρ c main_arg6 (by decide)).trans (before_pool m ρ c main_arg6 (by decide)))

/-- Its fourth and sixth inputs are b1 and b2, each viewed as one row. -/
theorem entry_b1 (c : Dev nD) :
    V3 m ρ c main_v1 = fun i => shapeCast S1x256 (m ((c : Thread nD τ).loc main_arg5)) shapeCasts_S256_S1x256 i := by
  refine (between m ρ c main_v1 (by decide)).trans ((W2_of_ne m ρ c main_v1 (by decide)).trans ?_)
  show after hostOps0 (W0 m ρ c) (Proc.devRef .tc main_v1) = _
  after_results
  rfl
theorem entry_b2 (c : Dev nD) :
    V3 m ρ c main_v2 = fun i => shapeCast S1x256 (m ((c : Thread nD τ).loc main_arg7)) shapeCasts_S256_S1x256 i := by
  refine (between m ρ c main_v2 (by decide)).trans ((W2_of_ne m ρ c main_v2 (by decide)).trans ?_)
  show after hostOps0 (W0 m ρ c) (Proc.devRef .tc main_v2) = _
  after_results
  rfl

/-- The edge stage of the launch contents of ev, src, dst, as a function of the table. -/
abbrev aggOf (c : Dev nD) (tbl : Cert.RefFacts.Arr Cert.ReferenceIdeal.S100000x128) : Cert.RefFacts.Arr Cert.ReferenceIdeal.S100000x128 :=
  Cert.RefFacts.edgeSum (m ((c : Thread nD τ).loc main_arg1)) (m ((c : Thread nD τ).loc main_arg8)) (m ((c : Thread nD τ).loc main_arg9)) tbl

/-- The sixteen operations leave in their last buffer the edge stage of what they find in the pooling region's second
    output, for the edge values and endpoints they find. -/
theorem edge_ops (c : Dev nD) :
    W3 m ρ c (Proc.devRef .tc main_v16)
      = Cert.RefFacts.edgeSum (W2 m ρ c (Proc.devRef .tc main_arg1)) (W2 m ρ c (Proc.devRef .tc main_arg8))
          (W2 m ρ c (Proc.devRef .tc main_arg9)) (W2 m ρ c (Proc.devRef .tc main_v3_1)) := by
  show after hostOps1 (W2 m ρ c) (Proc.devRef .tc main_v16) = _
  after_results
  unfold Cert.RefFacts.edgeSum Cert.ReferenceIdeal.Read.val_main_v18 Cert.ReferenceIdeal.Read.val_main_cst_1
    Cert.ReferenceIdeal.Read.val_main_v19 Cert.ReferenceIdeal.Read.val_main_v16 Cert.ReferenceIdeal.Read.val_main_v8
    Cert.ReferenceIdeal.Read.val_main_v14 Cert.ReferenceIdeal.Read.val_main_v13 Cert.ReferenceIdeal.Read.val_main_v10
    Cert.ReferenceIdeal.Read.val_main_v9 Cert.ReferenceIdeal.Read.val_main_c Cert.ReferenceIdeal.Read.val_main_v12
    Cert.ReferenceIdeal.Read.val_main_v11 Cert.ReferenceIdeal.Read.val_main_c_0
  rfl

/-- Its second input is the edge stage of h · h. -/
theorem entry_agg (c : Dev nD) : V3 m ρ c main_v16 = aggOf m c (fun i => hOf m c i * hOf m c i) := by
  refine (edge_ops m ρ c).trans ?_
  rw [after_pool_ev, after_pool_src, after_pool_dst, W2_arr m ρ c 4, final_hp]

end Cert.KernelIdeal.Mid

end
-- ==== Proof.RefResult.lean ====
/-
  The reference's result on the extended reals.

  With h the relu stage and a the edge stage, entry (n, o) of the result is
    (Σ_p h(n, p) · W1(o, p) + b1(o)) + Σ_p a(n, p) ^ (1/2) · W2(o, p) + b2(o).
  Over real inputs a(n, p) is a real number, so a(n, p) ^ (1/2) = sqrt (max a(n, p) 0), and the result is the
  "combining formula" `outOf` of h and a, written with the square root of the positive part.
-/
import proofs.«117527_j1580547970266_1_alg».proof.Proof.RefEdge

noncomputable section

namespace Cert.RefFacts

open Cert.ReferenceIdeal Cert.ReferenceIdeal.Read Idealize.ShloMosaic Cert.LibRealValued Cert.LibPowLaws Cert.LibScatterReal

variable (x0 : Arr S100000x256) (x1 : Arr S1600000) (x2 : Arr S128x256) (x3 : Arr S128) (x4 : Arr S256x128)
  (x5 : Arr S256) (x6 : Arr S256x128) (x7 : Arr S256) (x8 x9 : IArr S1600000)

/-- The combining formula: two row-by-row products with their biases, the second on the square roots of the positive
    parts of its left operand. -/
def outOf (h a : Arr S100000x128) : Arr S100000x256 := fun i =>
  ((∑ k : Fin 128, h (lidx_main_v24 i k) * x4 (idx_main_v23 (ridx_main_v24 i k))) + x5 (idx_main_v25 (idx_main_v26 i))
    + ∑ k : Fin 128, Ideal.sqrt (Max.max (a (lidx_main_v29 i k)) (Ideal.ofBits .f32 0x00000000#32)) * x6 (idx_main_v28 (ridx_main_v29 i k)))
  + x7 (idx_main_v31 (idx_main_v32 i))

/-- The reference's result at an index, its second product still over the stage "to the exponent 1/2". -/
theorem result_apply (i : S100000x256.Idx) :
    val_main_v33 (F := Ideal) x0 x1 x2 x3 x4 x5 x6 x7 x8 x9 i
      = ((∑ k : Fin 128, val_main_v5 (F := Ideal) x0 x2 x3 (lidx_main_v24 i k) * x4 (idx_main_v23 (ridx_main_v24 i k))) + x5 (idx_main_v25 (idx_main_v26 i))
          + ∑ k : Fin 128, val_main_v22 (F := Ideal) x0 x1 x2 x3 x8 x9 (lidx_main_v29 i k) * x6 (idx_main_v28 (ridx_main_v29 i k)))
        + x7 (idx_main_v31 (idx_main_v32 i)) := by
  have h24 : val_main_v24 (F := Ideal) x0 x2 x3 x4 i
      = ∑ k : Fin 128, val_main_v5 (F := Ideal) x0 x2 x3 (lidx_main_v24 i k) * x4 (idx_main_v23 (ridx_main_v24 i k)) :=
    (val_main_v24_apply x0 x2 x3 x4 i).trans (Finset.sum_congr rfl fun k _ =>
      congrArg (fun z => val_main_v5 (F := Ideal) x0 x2 x3 (lidx_main_v24 i k) * z) (val_main_v23_apply x4 (ridx_main_v24 i k)))
  have h26 : val_main_v26 (F := Ideal) x5 i = x5 (idx_main_v25 (idx_main_v26 i)) :=
    (val_main_v26_apply x5 i).trans (val_main_v25_apply x5 (idx_main_v26 i))
  have h29 : val_main_v29 (F := Ideal) x0 x1 x2 x3 x6 x8 x9 i
      = ∑ k : Fin 128, val_main_v22 (F := Ideal) x0 x1 x2 x3 x8 x9 (lidx_main_v29 i k) * x6 (idx_main_v28 (ridx_main_v29 i k)) :=
    (val_main_v29_apply x0 x1 x2 x3 x6 x8 x9 i).trans (Finset.sum_congr rfl fun k _ =>
      congrArg (fun z => val_main_v22 (F := Ideal) x0 x1 x2 x3 x8 x9 (lidx_main_v29 i k) * z) (val_main_v28_apply x6 (ridx_main_v29 i k)))
  have h32 : val_main_v32 (F := Ideal) x7 i = x7 (idx_main_v31 (idx_main_v32 i)) :=
    (val_main_v32_apply x7 i).trans (val_main_v31_apply x7 (idx_main_v32 i))
  have h27 := (val_main_v27_apply x0 x2 x3 x4 x5 i).trans (congrArg₂ (fun a b : EReal => a + b) h24 h26)
  have h30 := (val_main_v30_apply x0 x1 x2 x3 x4 x5 x6 x8 x9 i).trans (congrArg₂ (fun a b : EReal => a + b) h27 h29)
  exact (val_main_v33_apply x0 x1 x2 x3 x4 x5 x6 x7 x8 x9 i).trans (congrArg₂ (fun a b : EReal => a + b) h30 h32)

/-- Over real inputs the edge stage holds real numbers. -/
theorem edge_real (h0 : ∀ i, IsReal (x0 i)) (h1 : ∀ i, IsReal (x1 i)) (h2 : ∀ i, IsReal (x2 i)) (h3 : ∀ i, IsReal (x3 i))
    (j : S100000x128.Idx) : IsReal (val_main_v20 (F := Ideal) x0 x1 x2 x3 x8 x9 j) := by
  have e : val_main_v20 (F := Ideal) x0 x1 x2 x3 x8 x9 j
      = edgeSum x1 x8 x9 (fun i => val_main_v5 (F := Ideal) x0 x2 x3 i * val_main_v5 (F := Ideal) x0 x2 x3 i) j :=
    (congrFun (edge_stage x0 x1 x2 x3 x8 x9) j).trans
      (congrArg (fun t => edgeSum x1 x8 x9 t j) (square_stage x0 x2 x3 h0 h2 h3))
  exact (congrArg IsReal e).mpr (edgeSum_real x1 x8 x9 _
    (fun q => (relu_real x0 x2 x3 h0 h2 h3 q).mul (relu_real x0 x2 x3 h0 h2 h3 q)) h1 j)

/-- Over real inputs the stage "to the exponent 1/2" is the square root of the edge stage's positive part. -/
theorem root_stage (h0 : ∀ i, IsReal (x0 i)) (h1 : ∀ i, IsReal (x1 i)) (h2 : ∀ i, IsReal (x2 i)) (h3 : ∀ i, IsReal (x3 i))
    (j : S100000x128.Idx) :
    val_main_v22 (F := Ideal) x0 x1 x2 x3 x8 x9 j
      = Ideal.sqrt (Max.max (val_main_v20 (F := Ideal) x0 x1 x2 x3 x8 x9 j) (Ideal.ofBits .f32 0x00000000#32)) := by
  refine (val_main_v22_apply x0 x1 x2 x3 x8 x9 j).trans ?_
  rw [val_main_v21_apply, val_main_cst_2_apply, Ideal.hostPowf_def, Ideal.ofBits_def, ofBits_half, ofBits_zero]
  exact pow_half_of_real (edge_real x0 x1 x2 x3 x8 x9 h0 h1 h2 h3 j)

/-- Over real inputs the reference's result is the combining formula of its relu stage and its edge stage. -/
theorem result_eq (h0 : ∀ i, IsReal (x0 i)) (h1 : ∀ i, IsReal (x1 i)) (h2 : ∀ i, IsReal (x2 i)) (h3 : ∀ i, IsReal (x3 i)) :
    val_main_v33 (F := Ideal) x0 x1 x2 x3 x4 x5 x6 x7 x8 x9
      = outOf x4 x5 x6 x7 (val_main_v5 (F := Ideal) x0 x2 x3) (val_main_v20 (F := Ideal) x0 x1 x2 x3 x8 x9) := by
  funext i
  refine (result_apply x0 x1 x2 x3 x4 x5 x6 x7 x8 x9 i).trans ?_
  unfold outOf
  exact congrArg₂ (fun a b : EReal => a + b)
    (congrArg₂ (fun a b : EReal => a + b) rfl
      (Finset.sum_congr rfl fun k _ =>
        congrArg (fun z => z * x6 (idx_main_v28 (ridx_main_v29 i k))) (root_stage x0 x1 x2 x3 x8 x9 h0 h1 h2 h3 (lidx_main_v29 i k))))
    rfl

end Cert.RefFacts

end
-- ==== Proof.CombineRegion.lean ====
/-
  The combining region: what the result array holds when it ends.

  The region runs the combining body at 50 grid points; point t stages rows [2000 t, 2000 t + 2000) of its first two
  input arrays h and a, the whole W1, W2 and the two bias rows, and writes back rows [2000 t, 2000 t + 2000) of the
  result. Entry (p, q) of the block written at point t is
    (Σ_k h(2000 t + p, k) · W1(q, k) + b1(q)) + Σ_k sqrt (max a(2000 t + p, k) 0) · W2(q, k) + b2(q),
  the combining formula at the array entry (2000 t + p, q). The 50 row blocks tile the 100000 rows, so the result array
  ends holding the combining formula of h and a. All of this is stated for ANY contents of the region's input arrays
  (named h, a, W1, b1, W2, b2 by hypothesis); at the end the contents are the ones the program gives them: the relu
  stage, the edge stage of its squares, and the launch contents of the two output layers.
-/
import proofs.«117527_j1580547970266_1_alg».proof.Proof.EdgeHost
import proofs.«117527_j1580547970266_1_alg».proof.Proof.RefResult

set_option maxRecDepth 16384

noncomputable section

namespace Cert.KernelIdeal.Combine

open Cert.KernelIdeal Cert.KernelIdeal.Gen Cert.KernelIdeal.Pool Cert.KernelIdeal.Mid
open Idealize.ShloMosaic Idealize.ShloMosaic.TcCoe Idealize.SL.Sem Idealize.ShloMosaic.ValueIdx Idealize.ShloMosaic.StableHlo
open Idealize.ShloMosaic.Pipeline (Dat)

/-! ## The grid's index maps -/

/-- Point t stages row block t of the first two inputs and of the result; the weights and the bias rows are staged
    whole. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem hz : (![0, 0] : Fin 2 → Nat) = fun _ => 0 := funext fun a => by fin_cases a <;> rfl

/-! ## For any contents of the input arrays -/

section AnyContents

variable (V : (c : Dev nD) → (b : Ref sig .tc) → Buf (Elt Ideal) ((c : Thread nD τ).loc b))
variable (H A : Cert.RefFacts.Arr Cert.ReferenceIdeal.S100000x128) (W1 W2 : Cert.RefFacts.Arr Cert.ReferenceIdeal.S256x128)
  (B1 B2 : Cert.RefFacts.Arr Cert.ReferenceIdeal.S256)

/-- The staged blocks, read where the combining formula reads the arrays. -/
theorem read_h (c : Dev nD) (hH : V c main_v3_0 = H) (t : Fin cfg1.N) (p : Fin 2000) (k : Fin 128)
    (i : Cert.ReferenceIdeal.S100000x256.Idx) (h0 : (i 0).val = t.val * 2000 + p.val) :
    iblk1 V c 0 t (ix2 p k) = H (Cert.ReferenceIdeal.Read.lidx_main_v24 i k) := by
  obtain ⟨e0, e1, -⟩ := idx_facts t
  show V c main_v3_0 (((cfg1.win 0).blk t).view.emb (ix2 p k)) = _
  rw [hH]
  refine congrArg H (funext fun a => Fin.ext ?_)
  match a with
  | ⟨0, _⟩ => show win1_0.index t (0 : Fin 2) * 2000 + 1 * p.val = (i 0).val; omega
  | ⟨1, _⟩ => show win1_0.index t (1 : Fin 2) * 128 + 1 * k.val = k.val; omega

theorem read_a (c : Dev nD) (hA : V c main_v16 = A) (t : Fin cfg1.N) (p : Fin 2000) (k : Fin 128)
    (i : Cert.ReferenceIdeal.S100000x256.Idx) (h0 : (i 0).val = t.val * 2000 + p.val) :
    iblk1 V c 1 t (ix2 p k) = A (Cert.ReferenceIdeal.Read.lidx_main_v29 i k) := by
  obtain ⟨-, -, e2, e3, -⟩ := idx_facts t
  show V c main_v16 (((cfg1.win 1).blk t).view.emb (ix2 p k)) = _
  rw [hA]
  refine congrArg A (funext fun a => Fin.ext ?_)
  match a with
  | ⟨0, _⟩ => show win1_1.index t (0 : Fin 2) * 2000 + 1 * p.val = (i 0).val; omega
  | ⟨1, _⟩ => show win1_1.index t (1 : Fin 2) * 128 + 1 * k.val = k.val; omega

theorem read_w1 (c : Dev nD) (hW1 : V c main_arg4 = W1) (t : Fin cfg1.N) (q : Fin 256) (k : Fin 128)
    (i : Cert.ReferenceIdeal.S100000x256.Idx) (h1 : (i 1).val = q.val) :
    iblk1 V c 2 t (ix2 q k) = W1 (Cert.ReferenceIdeal.Read.idx_main_v23 (Cert.ReferenceIdeal.Read.ridx_main_v24 i k)) := by
  obtain ⟨-, -, -, -, e4, e5, -⟩ := idx_facts t
  show V c main_arg4 (((cfg1.win 2).blk t).view.emb (ix2 q k)) = _
  rw [hW1]
  refine congrArg W1 (funext fun a => Fin.ext ?_)
  match a with
  | ⟨0, _⟩ => show win1_2.index t (0 : Fin 2) * 256 + 1 * q.val = (i 1).val; omega
  | ⟨1, _⟩ => show win1_2.index t (1 : Fin 2) * 128 + 1 * k.val = k.val; omega

theorem read_w2 (c : Dev nD) (hW2 : V c main_arg6 = W2) (t : Fin cfg1.N) (q : Fin 256) (k : Fin 128)
    (i : Cert.ReferenceIdeal.S100000x256.Idx) (h1 : (i 1).val = q.val) :
    iblk1 V c 4 t (ix2 q k) = W2 (Cert.ReferenceIdeal.Read.idx_main_v28 (Cert.ReferenceIdeal.Read.ridx_main_v29 i k)) := by
  obtain ⟨-, -, -, -, -, -, -, -, e8, e9, -⟩ := idx_facts t
  show V c main_arg6 (((cfg1.win 4).blk t).view.emb (ix2 q k)) = _
  rw [hW2]
  refine congrArg W2 (funext fun a => Fin.ext ?_)
  match a with
  | ⟨0, _⟩ => show win1_4.index t (0 : Fin 2) * 256 + 1 * q.val = (i 1).val; omega
  | ⟨1, _⟩ => show win1_4.index t (1 : Fin 2) * 128 + 1 * k.val = k.val; omega

theorem read_b1 (c : Dev nD) (hB1 : V c main_v1 = fun i => shapeCast S1x256 B1 shapeCasts_S256_S1x256 i) (t : Fin cfg1.N)
    (q : Fin 256) (i : Cert.ReferenceIdeal.S100000x256.Idx) (h1 : (i 1).val = q.val) :
    iblk1 V c 3 t (ix2 (0 : Fin 1) q) = B1 (Cert.ReferenceIdeal.Read.idx_main_v25 (Cert.ReferenceIdeal.Read.idx_main_v26 i)) := by
  obtain ⟨-, -, -, -, -, -, e6, e7, -⟩ := idx_facts t
  show V c main_v1 (((cfg1.win 3).blk t).view.emb (ix2 (0 : Fin 1) q)) = _
  rw [hB1]
  refine (shapeCast_addUnit_apply ![256] B1 shapeCasts_S256_S1x256 _).trans ?_
  refine congrArg B1 (funext fun a => Fin.ext ?_)
  match a with
  | ⟨0, _⟩ => show win1_3.index t (1 : Fin 2) * 256 + 1 * q.val = (i 1).val; omega

theorem read_b2 (c : Dev nD) (hB2 : V c main_v2 = fun i => shapeCast S1x256 B2 shapeCasts_S256_S1x256 i) (t : Fin cfg1.N)
    (q : Fin 256) (i : Cert.ReferenceIdeal.S100000x256.Idx) (h1 : (i 1).val = q.val) :
    iblk1 V c 5 t (ix2 (0 : Fin 1) q) = B2 (Cert.ReferenceIdeal.Read.idx_main_v31 (Cert.ReferenceIdeal.Read.idx_main_v32 i)) := by
  obtain ⟨-, -, -, -, -, -, -, -, -, -, e10, e11, -⟩ := idx_facts t
  show V c main_v2 (((cfg1.win 5).blk t).view.emb (ix2 (0 : Fin 1) q)) = _
  rw [hB2]
  refine (shapeCast_addUnit_apply ![256] B2 shapeCasts_S256_S1x256 _).trans ?_
  refine congrArg B2 (funext fun a => Fin.ext ?_)
  match a with
  | ⟨0, _⟩ => show win1_5.index t (1 : Fin 2) * 256 + 1 * q.val = (i 1).val; omega

/-- The body's store at entry (p, q) of point t's block is the combining formula at any array index with row
    2000 t + p and column q. -/
theorem combine_point (c : Dev nD) (hH : V c main_v3_0 = H) (hA : V c main_v16 = A) (hW1 : V c main_arg4 = W1)
    (hB1 : V c main_v1 = fun i => shapeCast S1x256 B1 shapeCasts_S256_S1x256 i) (hW2 : V c main_arg6 = W2)
    (hB2 : V c main_v2 = fun i => shapeCast S1x256 B2 shapeCasts_S256_S1x256 i)
    (t : Fin cfg1.N) (p : Fin 2000) (q : Fin 256) (i : Cert.ReferenceIdeal.S100000x256.Idx)
    (h0 : (i 0).val = t.val * 2000 + p.val) (h1 : (i 1).val = q.val) :
    k1_pay1 (F := Ideal) (iblk1 V c 0 t) (iblk1 V c 1 t) (iblk1 V c 2 t) (iblk1 V c 4 t) (iblk1 V c 3 t) (iblk1 V c 5 t) (ix2 p q)
      = Cert.RefFacts.outOf W1 B1 W2 B2 H A i :=
  (Cert.KernelIdeal.Blocks.combine_at (iblk1 V c 0 t) (iblk1 V c 1 t) (iblk1 V c 2 t) (iblk1 V c 4 t) (iblk1 V c 3 t) (iblk1 V c 5 t) p q).trans
    (congrArg₂ (fun a b : EReal => a + b)
      (congrArg₂ (fun a b : EReal => a + b)
        (congrArg₂ (fun a b : EReal => a + b)
          (Finset.sum_congr rfl fun k _ => congrArg₂ (fun a b : EReal => a * b) (read_h V H c hH t p k i h0) (read_w1 V W1 c hW1 t q k i h1))
          (read_b1 V B1 c hB1 t q i h1))
        (Finset.sum_congr rfl fun k _ => congrArg₂ (fun a b : EReal => a * b)
          (congrArg (fun z : EReal => Ideal.sqrt (Max.max z (Ideal.ofBits .f32 0x00000000#32))) (read_a V A c hA t p k i h0))
          (read_w2 V W2 c hW2 t q k i h1)))
      (read_b2 V B2 c hB2 t q i h1))

/-- Point t writes back block t of the combining formula. -/
theorem flushed_out (c : Dev nD) (hH : V c main_v3_0 = H) (hA : V c main_v16 = A) (hW1 : V c main_arg4 = W1)
    (hB1 : V c main_v1 = fun i => shapeCast S1x256 B1 shapeCasts_S256_S1x256 i) (hW2 : V c main_arg6 = W2)
    (hB2 : V c main_v2 = fun i => shapeCast S1x256 B2 shapeCasts_S256_S1x256 i) (t : Fin cfg1.N) :
    (dat1 V c).flushed 6 t = ((cfg1.win 6).blk t).view.read (Elt Ideal) (Cert.RefFacts.outOf W1 B1 W2 B2 H A) := by
  show (cfg1.win 6).cut (grid1.coords t) ((dat1 V c).after 6 t) = _
  rw [after1_6]
  unfold out1_6
  rw [View.canon_unit_zero hz]
  simp only [View.ld_unit_zero (S := S2000x128) hz, View.ld_unit_zero (S := S256x128) hz, View.ld_unit_zero (S := S1x256) hz]
  obtain ⟨-, -, -, -, -, -, -, -, -, -, -, -, e12, e13⟩ := idx_facts t
  funext j
  obtain ⟨p, q, rfl⟩ : ∃ (p : Fin 2000) (q : Fin 256), j = ix2 p q := ⟨j 0, j 1, eq_ix2 j⟩
  show k1_pay1 (F := Ideal) (iblk1 V c 0 t) (iblk1 V c 1 t) (iblk1 V c 2 t) (iblk1 V c 4 t) (iblk1 V c 3 t) (iblk1 V c 5 t) (ix2 p q)
    = Cert.RefFacts.outOf W1 B1 W2 B2 H A (((cfg1.win 6).blk t).view.emb (ix2 p q))
  exact combine_point V H A W1 W2 B1 B2 c hH hA hW1 hB1 hW2 hB2 t p q _
    (by show win1_6.index t (0 : Fin 2) * 2000 + 1 * p.val = _; omega)
    (by show win1_6.index t (1 : Fin 2) * 256 + 1 * q.val = _; omega)

end AnyContents

/-! ## The row blocks tile the result -/

theorem mem_blk_out (t : Fin cfg1.N) (i : S100000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v17).slice (win1_6.rect t)).set ↔ _
  rw [View.set_slice_whole, Rect.mem_set_unit]
  exact Iff.rfl

/-- Row r lies in the block of point r / 2000. -/
theorem cover_out (i : S100000x256.Idx) : ∃ t : Fin cfg1.N, (cfg1.win 6).flush t = true ∧ i ∈ ((cfg1.win 6).blk t).view.set := by
  have hi0 : (i 0).val < 100000 := (i 0).isLt
  have hi1 : (i 1).val < 256 := (i 1).isLt
  have hN : grid1.N = 50 := N_1
  have ht : (i 0).val / 2000 < cfg1.N := by show (i 0).val / 2000 < grid1.N; rw [hN]; omega
  obtain ⟨-, -, -, -, -, -, -, -, -, -, -, -, e12, e13⟩ := idx_facts ⟨(i 0).val / 2000, ht⟩
  refine ⟨⟨(i 0).val / 2000, ht⟩, flush1_6 _, ?_⟩
  rw [mem_blk_out]
  intro a
  match a with
  | ⟨0, _⟩ =>
    show win1_6.index ⟨(i 0).val / 2000, ht⟩ (0 : Fin 2) * 2000 ≤ (i 0).val ∧ (i 0).val < win1_6.index ⟨(i 0).val / 2000, ht⟩ (0 : Fin 2) * 2000 + 2000
    rw [e12]; show (i 0).val / 2000 * 2000 ≤ (i 0).val ∧ (i 0).val < (i 0).val / 2000 * 2000 + 2000; omega
  | ⟨1, _⟩ =>
    show win1_6.index ⟨(i 0).val / 2000, ht⟩ (1 : Fin 2) * 256 ≤ (i 1).val ∧ (i 1).val < win1_6.index ⟨(i 0).val / 2000, ht⟩ (1 : Fin 2) * 256 + 256
    rw [e13]; omega

/-! ## The result array when the program ends -/

variable (m : (ℓ : Loc nD τ sig) → Buf (Elt Ideal) ℓ) (ρ : Dev nD → PrngReg)

/-- The edge stage of the relu stage's squares, for the launch contents of the arguments. -/
abbrev aOf (c : Dev nD) : Cert.RefFacts.Arr Cert.ReferenceIdeal.S100000x128 := aggOf m c (fun i => hOf m c i * hOf m c i)

/-- The combining formula of the relu stage and the edge stage, for the launch contents of W1, b1, W2, b2. -/
abbrev outK (c : Dev nD) : Cert.RefFacts.Arr Cert.ReferenceIdeal.S100000x256 :=
  Cert.RefFacts.outOf (m ((c : Thread nD τ).loc main_arg4)) (m ((c : Thread nD τ).loc main_arg5))
    (m ((c : Thread nD τ).loc main_arg6)) (m ((c : Thread nD τ).loc main_arg7)) (hOf m c) (aOf m c)

/-- The result array ends holding the combining formula of the relu stage and the edge stage. -/
theorem final_out (c : Dev nD) : (dat1 (V3 m ρ) c).arrAt 6 cfg1.N = outK m c :=
  (dat1 (V3 m ρ) c).arrAt_eq_of_cover 6 (outK m c)
    (fun t _ => flushed_out (V3 m ρ) (hOf m c) (aOf m c) (m ((c : Thread nD τ).loc main_arg4)) (m ((c : Thread nD τ).loc main_arg6))
      (m ((c : Thread nD τ).loc main_arg5)) (m ((c : Thread nD τ).loc main_arg7)) c
      (entry_h m ρ c) (entry_agg m ρ c) (entry_w1 m ρ c) (entry_b1 m ρ c) (entry_w2 m ρ c) (entry_b2 m ρ c) t)
    cover_out

/-- The last segment boundary's contents of the result buffer. -/
theorem result_value (c : Dev nD) : W4 m ρ c (Proc.devRef .tc main_v17) = outK m c :=
  (W4_arr m ρ c 6).trans (final_out m ρ c)

end Cert.KernelIdeal.Combine

end
-- ==== Proof.Bridge.lean ====
/-
  The two programs compute one function of the arguments.

  The kernel's result array ends holding the combining formula of the relu stage h and of the edge stage of h · h
  (the two regions and the host operations between them). Over real inputs the reference's result is the combining
  formula of h and of its own edge stage, which is the edge stage of h ^ 2; and h ^ 2 = h · h entry by entry because h
  holds real numbers. So the reference's function of the launch arrays is what the kernel's result array holds.
-/
import proofs.«117527_j1580547970266_1_alg».proof.Proof.CombineRegion

noncomputable section

namespace Cert.Bridge

open Cert.KernelIdeal Cert.KernelIdeal.Pool Cert.KernelIdeal.Mid Cert.KernelIdeal.Combine
open Idealize.ShloMosaic Idealize.ShloMosaic.TcCoe Idealize.SL.Sem Cert.LibRealValued

variable (m : (ℓ : Loc nD τ sig) → Buf (Elt Ideal) ℓ)

/-- Over real x, edge values, Wp and bp, the reference's function of the launch arrays is the array the kernel ends
    with. -/
theorem ref_eq_kernel (c : Dev nD)
    (h0 : ∀ i, IsReal (m ((c : Thread nD τ).loc main_arg0) i)) (h1 : ∀ i, IsReal (m ((c : Thread nD τ).loc main_arg1) i))
    (h2 : ∀ i, IsReal (m ((c : Thread nD τ).loc main_arg2) i)) (h3 : ∀ i, IsReal (m ((c : Thread nD τ).loc main_arg3) i)) :
    Cert.ReferenceIdeal.Read.val_main_v33 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9))
      = outK m c :=
  (Cert.RefFacts.result_eq (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) h0 h1 h2 h3).trans
    (congrArg (Cert.RefFacts.outOf (m ((c : Thread nD τ).loc main_arg4)) (m ((c : Thread nD τ).loc main_arg5))
        (m ((c : Thread nD τ).loc main_arg6)) (m ((c : Thread nD τ).loc main_arg7)) (hOf m c))
      ((Cert.RefFacts.edge_stage (m ((c : Thread nD τ).loc main_arg0)) (m ((c : Thread nD τ).loc main_arg1))
          (m ((c : Thread nD τ).loc main_arg2)) (m ((c : Thread nD τ).loc main_arg3)) (m ((c : Thread nD τ).loc main_arg8))
          (m ((c : Thread nD τ).loc main_arg9))).trans
        (congrArg (Cert.RefFacts.edgeSum (m ((c : Thread nD τ).loc main_arg1)) (m ((c : Thread nD τ).loc main_arg8))
            (m ((c : Thread nD τ).loc main_arg9)))
          (Cert.RefFacts.square_stage (m ((c : Thread nD τ).loc main_arg0)) (m ((c : Thread nD τ).loc main_arg2))
            (m ((c : Thread nD τ).loc main_arg3)) h0 h2 h3))))

end Cert.Bridge

end
-- ==== Proof.lean ====
/-
  The kernel — a pooling layer with relu and squaring on the matrix unit, the edge sums on the host, and a combining
  layer with a square root on the matrix unit — against its reference, on the extended reals.

  Both programs compute, for node features x, pooling layer Wp, bp, output layers W1, b1, W2, b2, edge values ev and
  edge endpoints src, dst:
    h(n, p)   = max (Σ_k x(n, k) · Wp(p, k) + bp(p)) 0
    a(n, p)   = Σ over the edges e into n of ev(e) · h(src e, p)²
    out(n, o) = (Σ_p h(n, p) · W1(o, p) + b1(o)) + Σ_p √a(n, p) · W2(o, p) + b2(o).
  The kernel squares by multiplying and takes sqrt (max a 0); the reference raises to the exponents 2 and 1/2. On real
  numbers these agree (r² = r · r; r ^ (1/2) = sqrt (max r 0), both sides 0 for negative r), and under the precondition
  every quantity in sight is real: finite x, Wp, bp make h real, finite ev then makes a real. The exponent 1/2 differs
  from the clamped square root only at -∞, which a sum of reals is not. Row blocks, roundings to bf16 before the
  products and the order of the sums do not matter on the extended reals.

  Frames: both kernel programs by their launch-and-region certificates; the reference by its run. The idealization
  rewrote nothing, so there is nothing to preserve.
-/
import proofs.«117527_j1580547970266_1_alg».proof.Defs
import proofs.«117527_j1580547970266_1_alg».proof.Proof.Gen.Kernel
import proofs.«117527_j1580547970266_1_alg».proof.Proof.Gen.Kernel.Skeleton
import proofs.«117527_j1580547970266_1_alg».proof.Proof.Gen.Kernel.Launch
import proofs.«117527_j1580547970266_1_alg».proof.Proof.Gen.Kernel.Points
import proofs.«117527_j1580547970266_1_alg».proof.Proof.Gen.Kernel.Frame
import proofs.«117527_j1580547970266_1_alg».proof.Proof.Gen.KernelIdeal
import proofs.«117527_j1580547970266_1_alg».proof.Proof.Gen.KernelIdeal.Skeleton
import proofs.«117527_j1580547970266_1_alg».proof.Proof.Gen.KernelIdeal.Launch
import proofs.«117527_j1580547970266_1_alg».proof.Proof.Gen.KernelIdeal.Points
import proofs.«117527_j1580547970266_1_alg».proof.Proof.Gen.KernelIdeal.Frame
import proofs.«117527_j1580547970266_1_alg».proof.Proof.Gen.ReferenceIdeal
import proofs.«117527_j1580547970266_1_alg».proof.Proof.Gen.ReferenceIdeal.Run
import proofs.«117527_j1580547970266_1_alg».proof.Proof.Gen.ReferenceIdeal.Read
import proofs.«117527_j1580547970266_1_alg».proof.Proof.Gen.Pre_finite_inputs
import proofs.«117527_j1580547970266_1_alg».proof.Proof.KernelRun
import proofs.«117527_j1580547970266_1_alg».proof.Proof.FiniteInputs
import proofs.«117527_j1580547970266_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs run and end with the same result array: the kernel's run
    leaves the combining formula of h and of the edge sums of h · h; the reference's run leaves its own composed
    function of the same arguments, which over the reals the precondition grants is that array. -/
theorem algebraic : Cert.algebraic_KernelIdeal_ReferenceIdeal := by
  intro m ρ m' ρ' hpre hagree
  refine ⟨fun c => Cert.KernelIdeal.Combine.outK m c, ?_, ?_⟩
  · exact (θ_run Cert.KernelIdeal.defs _ _).mono
      (fun r h c => ⟨(h c).1.trans (Cert.KernelIdeal.Combine.result_value m ρ c), (h c).2⟩)
      (Cert.KernelIdeal.Run.run_result m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9⟩ := hagree c
    obtain ⟨r0, r1, r2, r3⟩ := Cert.FiniteInputs.reals_of_pre _ _ _ _ _ _ _ _ _ _ (hpre c)
    refine (Cert.ReferenceIdeal.Read.val_main_v33_eq _ _ _ _ _ _ _ _ _ _).trans ?_
    rw [e0, e1, e2, e3, e4, e5, e6, e7, e8, e9]
    exact Cert.Bridge.ref_eq_kernel m c r0 r1 r2 r3

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
